-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x64x64 : Shape := ⟨4, ![16, 256, 64, 64]⟩
abbrev S3x16 : Shape := ⟨2, ![3, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S16x256x64x64 : S_.BroadcastsInDim S16x256x64x64 (![] : Fin 0 → Fin S16x256x64x64.rank)
  reducesTo_S16x256x64x64_S_d0_1_2_3 : S16x256x64x64.ReducesTo [0, 1, 2, 3] S_
  h_S_ : 0 < S_.numel
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S16x256x64x64 .f32) (main_arg1 : FVec F S3x16 .f32) (main_arg2 : FVec F S16 .f32) (main_arg3 : FVec F S16x1 .f32) (main_arg4 : FVec F S1 .f32) : IVec S_ 1 :=
  let main_v0 : FVec F S16x256x64x64 .f32 := Host.absf main_arg0
  let main_cst : FVec F S_ .f32 := constant S_ .f32 0x7F800000#32
  let main_v1 : FVec F S16x256x64x64 .f32 := broadcastInDim S16x256x64x64 ![] bcast_S_S16x256x64x64 main_cst
  let main_v2 : IVec S16x256x64x64 1 := cmpf .olt main_v0 main_v1
  let main_c : IVec S_ 1 := constantI S_ 1 1#1
  let main_v3 : IVec S_ 1 := (fun x v => Host.reduce IntOp.andi x v reducesTo_S16x256x64x64_S_d0_1_2_3 h_S_) main_v2 main_c
  let main_v4 : FVec F S3x16 .f32 := Host.absf main_arg1
  let main_cst_0 : FVec F S_ .f32 := constant S_ .f32 0x7F800000#32
  let main_v5 : FVec F S3x16 .f32 := broadcastInDim S3x16 ![] bcast_S_S3x16 main_cst_0
  let main_v6 : IVec S3x16 1 := cmpf .olt main_v4 main_v5
  let main_c_1 : IVec S_ 1 := constantI S_ 1 1#1
  let main_v7 : IVec S_ 1 := (fun x v => Host.reduce IntOp.andi x v reducesTo_S3x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg3
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg4 main_v13 main_v16
-- ==== Kernel.lean ====
abbrev S16x256x64x64 : Shape := ⟨4, ![16, 256, 64, 64]⟩
abbrev S3x16 : Shape := ⟨2, ![3, 16]⟩
abbrev S16 : Shape := ⟨1, ![16]⟩
abbrev S16x1 : Shape := ⟨2, ![16, 1]⟩
abbrev S1 : Shape := ⟨1, ![1]⟩
abbrev S16x64x64 : Shape := ⟨3, ![16, 64, 64]⟩
abbrev S1x256x64x64 : Shape := ⟨4, ![1, 256, 64, 64]⟩
abbrev S1x64x64 : Shape := ⟨3, ![1, 64, 64]⟩
abbrev S256x64x64 : Shape := ⟨3, ![256, 64, 64]⟩
abbrev S64x64 : Shape := ⟨2, ![64, 64]⟩
abbrev S64x64x1 : Shape := ⟨3, ![64, 64, 1]⟩
abbrev S64x64x3 : Shape := ⟨3, ![64, 64, 3]⟩
abbrev S4096x3 : Shape := ⟨2, ![4096, 3]⟩
abbrev S4096x16 : Shape := ⟨2, ![4096, 16]⟩
abbrev S1x16 : Shape := ⟨2, ![1, 16]⟩
abbrev S4096x1 : Shape := ⟨2, ![4096, 1]⟩
abbrev S1x1 : Shape := ⟨2, ![1, 1]⟩
abbrev S4096 : Shape := ⟨1, ![4096]⟩

abbrev nBuf : Space → Nat
  | .hbm => 6
  | .vmem => 8
  | .smem => 0
  | _ => 0

abbrev bufTy : (tb : Table) → Fin (tcTables nBuf tb) → BufTy
  | .hbm, ⟨0, _⟩ => ⟨S16x256x64x64, .f32⟩
  | .hbm, ⟨1, _⟩ => ⟨S3x16, .f32⟩
  | .hbm, ⟨2, _⟩ => ⟨S16, .f32⟩
  | .hbm, ⟨3, _⟩ => ⟨S16x1, .f32⟩
  | .hbm, ⟨4, _⟩ => ⟨S1, .f32⟩
  | .hbm, ⟨5, _⟩ => ⟨S16x64x64, .f32⟩
  | .local _ .vmem, ⟨0, _⟩ => ⟨S1x256x64x64, .f32⟩
  | .local _ .vmem, ⟨1, _⟩ => ⟨S1x256x64x64, .f32⟩
  | .local _ .vmem, ⟨2, _⟩ => ⟨S3x16, .f32⟩
  | .local _ .vmem, ⟨3, _⟩ => ⟨S16, .f32⟩
  | .local _ .vmem, ⟨4, _⟩ => ⟨S16x1, .f32⟩
  | .local _ .vmem, ⟨5, _⟩ => ⟨S1, .f32⟩
  | .local _ .vmem, ⟨6, _⟩ => ⟨S1x64x64, .f32⟩
  | .local _ .vmem, ⟨7, _⟩ => ⟨S1x64x64, .f32⟩
  | _, _ => ⟨S16x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1x256x64x64_S1x256x64x64_0_0_0_0 : ∀ a, (![0, 0, 0, 0] : Fin 4 → Nat) a + S1x256x64x64.size a ≤ S1x256x64x64.size a
  h_S1x256x64x64 : 0 < S1x256x64x64.numel
  shapeCasts_S1x256x64x64_S256x64x64 : S1x256x64x64.ShapeCasts S256x64x64
  reduces_S256x64x64_S64x64 : S256x64x64.Reduces [0] S64x64
  shapeCasts_S64x64_S1x64x64 : S64x64.ShapeCasts S1x64x64
  broadcasts_S1x64x64_S256x64x64 : S1x64x64.Broadcasts S256x64x64
  shapeCasts_S64x64_S64x64x1 : S64x64.ShapeCasts S64x64x1
  concatenates_S64x64x1_S64x64x1_S64x64x1_S64x64x3_d2 : Shape.Concatenates [S64x64x1, S64x64x1, S64x64x1] S64x64x3 2
  shapeCasts_S64x64x3_S4096x3 : S64x64x3.ShapeCasts S4096x3
  inb_S3x16_S3x16_0_0 : ∀ a, (![0, 0] : Fin 2 → Nat) a + S3x16.size a ≤ S3x16.size a
  h_S3x16 : 0 < S3x16.numel
  inb_S16_S16_0 : ∀ a, (![0] : Fin 1 → Nat) a + S16.size a ≤ S16.size a
  h_S16 : 0 < S16.numel
  inb_S16x1_S16x1_0_0 : ∀ a, (![0, 0] : Fin 2 → Nat) a + S16x1.size a ≤ S16x1.size a
  h_S16x1 : 0 < S16x1.numel
  inb_S1_S1_0 : ∀ a, (![0] : Fin 1 → Nat) a + S1.size a ≤ S1.size a
  h_S1 : 0 < S1.numel
  shapeCasts_S16_S1x16 : S16.ShapeCasts S1x16
  broadcasts_S1x16_S4096x16 : S1x16.Broadcasts S4096x16
  shapeCasts_S1_S1x1 : S1.ShapeCasts S1x1
  broadcasts_S1x1_S4096x1 : S1x1.Broadcasts S4096x1
  shapeCasts_S4096x1_S4096 : S4096x1.ShapeCasts S4096
  shapeCasts_S4096_S64x64 : S4096.ShapeCasts S64x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  dot_S4096x3_S3x16_S4096x16_1_0_0_1_n_n_wf : DotDims.WF S4096x3 S3x16 S4096x16 [1] [0] [0] [1] [] []
  dot_S4096x16_S16x1_S4096x1_1_0_0_1_n_n_wf : DotDims.WF S4096x16 S16x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64x64.size a ≤ S16x256x64x64.size a
  hwx0_0 : ∀ i : grid0.Coords, EltTy.bits .f32 = 32 ∨ (Rect.block (s := S16x256x64x64) S1x256x64x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16.size a ≤ S3x16.size a
  hwx0_1 : ∀ i : grid0.Coords, EltTy.bits .f32 = 32 ∨ (Rect.block (s := S3x16) S3x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S16x1.size a
  hwx0_3 : ∀ i : grid0.Coords, EltTy.bits .f32 = 32 ∨ (Rect.block (s := S16x1) S16x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x64.size a ≤ S16x64x64.size a
  hwx0_5 : ∀ i : grid0.Coords, EltTy.bits .f32 = 32 ∨ (Rect.block (s := S16x64x64) S1x64x64.size (cc0_transform_5 i) (hinb0_5 i)).WholeWords (EltTy.packing .f32)

variable [Facts₀]

def dot_S4096x3_S3x16_S4096x16_1_0_0_1_n_n : DotDims S4096x3 S3x16 S4096x16 where
  lhsContracting := [1]
  rhsContracting := [0]
  lhsNonContracting := [0]
  rhsNonContracting := [1]
  lhsBatch := []
  rhsBatch := []
  wf := dot_S4096x3_S3x16_S4096x16_1_0_0_1_n_n_wf
def dot_S4096x16_S16x1_S4096x1_1_0_0_1_n_n : DotDims S4096x16 S16x1 S4096x1 where
  lhsContracting := [1]
  rhsContracting := [0]
  lhsNonContracting := [0]
  rhsNonContracting := [1]
  lhsBatch := []
  rhsBatch := []
  wf := dot_S4096x16_S16x1_S4096x1_1_0_0_1_n_n_wf

abbrev win0_0 : Pipeline.Window sig grid0 :=
  Pipeline.Window.ofSpec (Memref.whole main_arg0) S1x256x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x64x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x256x64x64 : Shape := ⟨4, ![16, 256, 64, 64]⟩
abbrev S3x16 : Shape := ⟨2, ![3, 16]⟩
abbrev S16 : Shape := ⟨1, ![16]⟩
abbrev S16x1 : Shape := ⟨2, ![16, 1]⟩
abbrev S1 : Shape := ⟨1, ![1]⟩
abbrev S_ : Shape := ⟨0, ![]⟩
abbrev S16x64x64 : Shape := ⟨3, ![16, 64, 64]⟩
abbrev S16x1x64x64 : Shape := ⟨4, ![16, 1, 64, 64]⟩
abbrev S16x64x64x1 : Shape := ⟨4, ![16, 64, 64, 1]⟩
abbrev S16x64x64x3 : Shape := ⟨4, ![16, 64, 64, 3]⟩
abbrev S16x64x64x16 : Shape := ⟨4, ![16, 64, 64, 16]⟩
abbrev S1x1x1x16 : Shape := ⟨4, ![1, 1, 1, 16]⟩
abbrev S1x1x1x1 : Shape := ⟨4, ![1, 1, 1, 1]⟩

abbrev nBuf : Space → Nat
  | .hbm => 84
  | .vmem => 0
  | .smem => 0
  | _ => 0

abbrev bufTy : (tb : Table) → Fin (tcTables nBuf tb) → BufTy
  | .hbm, ⟨0, _⟩ => ⟨S16x256x64x64, .f32⟩
  | .hbm, ⟨1, _⟩ => ⟨S3x16, .f32⟩
  | .hbm, ⟨2, _⟩ => ⟨S16, .f32⟩
  | .hbm, ⟨3, _⟩ => ⟨S16x1, .f32⟩
  | .hbm, ⟨4, _⟩ => ⟨S1, .f32⟩
  | .hbm, ⟨5, _⟩ => ⟨S16x256x64x64, .f32⟩
  | .hbm, ⟨6, _⟩ => ⟨S_, .f32⟩
  | .hbm, ⟨7, _⟩ => ⟨S16x64x64, .f32⟩
  | .hbm, ⟨8, _⟩ => ⟨S_, .f32⟩
  | .hbm, ⟨9, _⟩ => ⟨S16x64x64, .f32⟩
  | .hbm, ⟨10, _⟩ => ⟨S16x64x64, .f32⟩
  | .hbm, ⟨11, _⟩ => ⟨S16x64x64, .f32⟩
  | .hbm, ⟨12, _⟩ => ⟨S_, .i32⟩
  | .hbm, ⟨13, _⟩ => ⟨S_, .f32⟩
  | .hbm, ⟨14, _⟩ => ⟨S16x64x64, .f32⟩
  | .hbm, ⟨15, _⟩ => ⟨S16x1x64x64, .f32⟩
  | .hbm, ⟨16, _⟩ => ⟨S_, .f32⟩
  | .hbm, ⟨17, _⟩ => ⟨S16x1x64x64, .f32⟩
  | .hbm, ⟨18, _⟩ => ⟨S16x1x64x64, .f32⟩
  | .hbm, ⟨19, _⟩ => ⟨S16x256x64x64, .f32⟩
  | .hbm, ⟨20, _⟩ => ⟨S16x256x64x64, .f32⟩
  | .hbm, ⟨21, _⟩ => ⟨S16x256x64x64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S16x64x64, .f32⟩
  | .hbm, ⟨27, _⟩ => ⟨S16x64x64, .f32⟩
  | .hbm, ⟨28, _⟩ => ⟨S16x64x64, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S16x64x64, .f32⟩
  | .hbm, ⟨34, _⟩ => ⟨S16x64x64, .f32⟩
  | .hbm, ⟨35, _⟩ => ⟨S16x64x64, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S16x64x64, .f32⟩
  | .hbm, ⟨40, _⟩ => ⟨S16x64x64, .f32⟩
  | .hbm, ⟨41, _⟩ => ⟨S_, .f32⟩
  | .hbm, ⟨42, _⟩ => ⟨S16x64x64, .f32⟩
  | .hbm, ⟨43, _⟩ => ⟨S16x64x64, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S16x64x64, .f32⟩
  | .hbm, ⟨48, _⟩ => ⟨S16x64x64, .f32⟩
  | .hbm, ⟨49, _⟩ => ⟨S_, .f32⟩
  | .hbm, ⟨50, _⟩ => ⟨S16x64x64, .f32⟩
  | .hbm, ⟨51, _⟩ => ⟨S16x64x64, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S16x64x64, .f32⟩
  | .hbm, ⟨56, _⟩ => ⟨S16x64x64, .f32⟩
  | .hbm, ⟨57, _⟩ => ⟨S_, .f32⟩
  | .hbm, ⟨58, _⟩ => ⟨S16x64x64, .f32⟩
  | .hbm, ⟨59, _⟩ => ⟨S16x64x64, .f32⟩
  | .hbm, ⟨60, _⟩ => ⟨S16x64x64x1, .f32⟩
  | .hbm, ⟨61, _⟩ => ⟨S16x64x64x1, .f32⟩
  | .hbm, ⟨62, _⟩ => ⟨S16x64x64x1, .f32⟩
  | .hbm, ⟨63, _⟩ => ⟨S16x64x64x3, .f32⟩
  | .hbm, ⟨64, _⟩ => ⟨S16x64x64x16, .f32⟩
  | .hbm, ⟨65, _⟩ => ⟨S1x1x1x16, .f32⟩
  | .hbm, ⟨66, _⟩ => ⟨S16x64x64x16, .f32⟩
  | .hbm, ⟨67, _⟩ => ⟨S16x64x64x16, .f32⟩
  | .hbm, ⟨68, _⟩ => ⟨S_, .f32⟩
  | .hbm, ⟨69, _⟩ => ⟨S16x64x64x16, .f32⟩
  | .hbm, ⟨70, _⟩ => ⟨S16x64x64x16, .f32⟩
  | .hbm, ⟨71, _⟩ => ⟨S16x64x64x1, .f32⟩
  | .hbm, ⟨72, _⟩ => ⟨S1x1x1x1, .f32⟩
  | .hbm, ⟨73, _⟩ => ⟨S16x64x64x1, .f32⟩
  | .hbm, ⟨74, _⟩ => ⟨S16x64x64x1, .f32⟩
  | .hbm, ⟨75, _⟩ => ⟨S16x64x64x1, .f32⟩
  | .hbm, ⟨76, _⟩ => ⟨S16x64x64x1, .f32⟩
  | .hbm, ⟨77, _⟩ => ⟨S_, .f32⟩
  | .hbm, ⟨78, _⟩ => ⟨S16x64x64x1, .f32⟩
  | .hbm, ⟨79, _⟩ => ⟨S16x64x64x1, .f32⟩
  | .hbm, ⟨80, _⟩ => ⟨S_, .f32⟩
  | .hbm, ⟨81, _⟩ => ⟨S16x64x64x1, .f32⟩
  | .hbm, ⟨82, _⟩ => ⟨S16x64x64x1, .f32⟩
  | .hbm, ⟨83, _⟩ => ⟨S16x64x64, .f32⟩
  | _, _ => ⟨S16x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_cst_3 : Ref sig .tc := ⟨.hbm, 29, rfl⟩
abbrev main_call0_v12 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_cst_2 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v7 : Ref sig .tc := ⟨.hbm, 43, rfl⟩
abbrev main_cst_3 : Ref sig .tc := ⟨.hbm, 44, rfl⟩
abbrev main_cst_4 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v8 : Ref sig .tc := ⟨.hbm, 51, rfl⟩
abbrev main_cst_5 : Ref sig .tc := ⟨.hbm, 52, rfl⟩
abbrev main_cst_6 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_call4_cst : Ref sig .tc := ⟨.hbm, 68, rfl⟩
abbrev main_call4_v0 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_cst_7 : Ref sig .tc := ⟨.hbm, 77, rfl⟩
abbrev main_v25 : Ref sig .tc := ⟨.hbm, 78, rfl⟩
abbrev main_v26 : Ref sig .tc := ⟨.hbm, 79, rfl⟩
abbrev main_cst_8 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩

abbrev nD : Nat := 1
abbrev τ : Topo := Topo.v7x

variable {F : FTy → Type} [FloatOps F]

class Facts₀ : Prop where
  reducesTo_S16x256x64x64_S16x64x64_d1 : S16x256x64x64.ReducesTo [1] S16x64x64
  h_S_ : 0 < S_.numel
  bcast_S_S16x64x64 : S_.BroadcastsInDim S16x64x64 (![] : Fin 0 → Fin S16x64x64.rank)
  bcast_S16x64x64_S16x1x64x64_0_2_3 : S16x64x64.BroadcastsInDim S16x1x64x64 (![0, 2, 3] : Fin 3 → Fin S16x1x64x64.rank)
  bcast_S_S16x1x64x64 : S_.BroadcastsInDim S16x1x64x64 (![] : Fin 0 → Fin S16x1x64x64.rank)
  bcast_S16x1x64x64_S16x256x64x64_0_1_2_3 : S16x1x64x64.BroadcastsInDim S16x256x64x64 (![0, 1, 2, 3] : Fin 4 → Fin S16x256x64x64.rank)
  bcast_S16x64x64_S16x64x64x1_0_1_2 : S16x64x64.BroadcastsInDim S16x64x64x1 (![0, 1, 2] : Fin 3 → Fin S16x64x64x1.rank)
  concatenates_S16x64x64x1_S16x64x64x1_S16x64x64x1_S16x64x64x3_d3 : Shape.Concatenates [S16x64x64x1, S16x64x64x1, S16x64x64x1] S16x64x64x3 3
  bcast_S16_S1x1x1x16_3 : S16.BroadcastsInDim S1x1x1x16 (![3] : Fin 1 → Fin S1x1x1x16.rank)
  bcast_S1x1x1x16_S16x64x64x16_0_1_2_3 : S1x1x1x16.BroadcastsInDim S16x64x64x16 (![0, 1, 2, 3] : Fin 4 → Fin S16x64x64x16.rank)
  bcast_S_S16x64x64x16 : S_.BroadcastsInDim S16x64x64x16 (![] : Fin 0 → Fin S16x64x64x16.rank)
  bcast_S1_S1x1x1x1_3 : S1.BroadcastsInDim S1x1x1x1 (![3] : Fin 1 → Fin S1x1x1x1.rank)
  bcast_S1x1x1x1_S16x64x64x1_0_1_2_3 : S1x1x1x1.BroadcastsInDim S16x64x64x1 (![0, 1, 2, 3] : Fin 4 → Fin S16x64x64x1.rank)
  bcast_S_S16x64x64x1 : S_.BroadcastsInDim S16x64x64x1 (![] : Fin 0 → Fin S16x64x64x1.rank)
  shapeCasts_S16x64x64x1_S16x64x64 : S16x64x64x1.ShapeCasts S16x64x64
  dot_S16x64x64x3_S3x16_S16x64x64x16_3_0_012_1_n_n_wf : DotDims.WF S16x64x64x3 S3x16 S16x64x64x16 [3] [0] [0, 1, 2] [1] [] []
  dot_S16x64x64x16_S16x1_S16x64x64x1_3_0_012_1_n_n_wf : DotDims.WF S16x64x64x16 S16x1 S16x64x64x1 [3] [0] [0, 1, 2] [1] [] []

variable [Facts₀]

def dot_S16x64x64x3_S3x16_S16x64x64x16_3_0_012_1_n_n : DotDims S16x64x64x3 S3x16 S16x64x64x16 where
  lhsContracting := [3]
  rhsContracting := [0]
  lhsNonContracting := [0, 1, 2]
  rhsNonContracting := [1]
  lhsBatch := []
  rhsBatch := []
  wf := dot_S16x64x64x3_S3x16_S16x64x64x16_3_0_012_1_n_n_wf
def dot_S16x64x64x16_S16x1_S16x64x64x1_3_0_012_1_n_n : DotDims S16x64x64x16 S16x1 S16x64x64x1 where
  lhsContracting := [3]
  rhsContracting := [0]
  lhsNonContracting := [0, 1, 2]
  rhsNonContracting := [1]
  lhsBatch := []
  rhsBatch := []
  wf := dot_S16x64x64x16_S16x1_S16x64x64x1_3_0_012_1_n_n_wf

class Facts : Prop extends Facts₀ where

variable [Facts]
-- ==== Proof.Pixel.lean ====
/-
  The per-pixel mathematics, on the extended reals with the exact operations.
  For one pixel, `col` is its column of 256 channel values. Its three statistics are the root of the mean of
  squares, the unbiased variance (the sum of squared deviations from the channel mean, over 255) and the root of
  that variance, each clipped to [0, 1]. The score is the 3-16-1 perceptron on them: a hidden layer floored at
  zero and the logistic function of the output layer. Both programs compute exactly this, pixel by pixel, and
  `G` is the whole result array as that function of the five argument arrays.
  Also here: the few f32 words that occur, as the reals they denote, and the two spellings of the divisor 255
  and of the logistic function that the two programs use.
-/
import Idealize.ShloMosaic.PureOps.Ideal.Laws
import Idealize.ShloMosaic.Lib.ValueIdx

noncomputable section

namespace Cert.PixelScore

open Idealize.ShloMosaic Idealize.ShloMosaic.ValueIdx

/-! ## One pixel -/

/-- Clipping to [0, 1]: the minimum with the word of 1 of the maximum with the word of 0. -/
def clipUnit (x : EReal) : EReal :=
  min (Ideal.ofBits .f32 0x3F800000#32) (max (Ideal.ofBits .f32 0x00000000#32) x)

/-- The mean of the column: its sum over the word of 256. -/
def chanMean (col : Fin 256 → EReal) : EReal :=
  Ideal.div (∑ c : Fin 256, col c) (Ideal.ofBits .f32 0x43800000#32)

/-- The mean of the squares of the column. -/
def sqMean (col : Fin 256 → EReal) : EReal :=
  Ideal.div (∑ c : Fin 256, col c * col c) (Ideal.ofBits .f32 0x43800000#32)

/-- The unbiased variance: the sum of the squared deviations from the mean, over the word of 255. -/
def variance (col : Fin 256 → EReal) : EReal :=
  Ideal.div (∑ c : Fin 256, (col c - chanMean col) * (col c - chanMean col)) (Ideal.ofBits .f32 0x437F0000#32)

/-- The three clipped statistics of a column. -/
def stat (col : Fin 256 → EReal) : Fin 3 → EReal :=
  ![clipUnit (Ideal.sqrt (sqMean col)), clipUnit (variance col), clipUnit (Ideal.sqrt (variance col))]

theorem stat_zero (col : Fin 256 → EReal) : stat col 0 = clipUnit (Ideal.sqrt (sqMean col)) := rfl
theorem stat_one (col : Fin 256 → EReal) : stat col 1 = clipUnit (variance col) := rfl
theorem stat_two (col : Fin 256 → EReal) : stat col 2 = clipUnit (Ideal.sqrt (variance col)) := rfl

/-- A hidden unit: the statistics against its column of W1, plus its bias, floored at the zero word. -/
def hidden (s : Fin 3 → EReal) (w1 : Fin 3 → Fin 16 → EReal) (b1 : Fin 16 → EReal) (o : Fin 16) : EReal :=
  max ((∑ i : Fin 3, s i * w1 i o) + b1 o) (Ideal.ofBits .f32 0x00000000#32)

/-- The score: the logistic function of the hidden layer against W2, plus the bias. -/
def score (s : Fin 3 → EReal) (w1 : Fin 3 → Fin 16 → EReal) (b1 : Fin 16 → EReal) (w2 : Fin 16 → EReal) (b2 : EReal) : EReal :=
  Ideal.logistic ((∑ o : Fin 16, hidden s w1 b1 o * w2 o) + b2)

/-! ## The whole array -/

/-- The result array as one function of the argument arrays: at pixel (b, h, w) the score of the statistics of the
    column `c ↦ x (b, c, h, w)`. -/
def G (x : (⟨4, ![16, 256, 64, 64]⟩ : Shape).Idx → EReal) (w1 : (⟨2, ![3, 16]⟩ : Shape).Idx → EReal)
    (b1 : (⟨1, ![16]⟩ : Shape).Idx → EReal) (w2 : (⟨2, ![16, 1]⟩ : Shape).Idx → EReal)
    (b2 : (⟨1, ![1]⟩ : Shape).Idx → EReal) : (⟨3, ![16, 64, 64]⟩ : Shape).Idx → EReal :=
  fun j => score (stat fun c => x (ix4 (j 0) c (j 1) (j 2))) (fun i o => w1 (ix2 i o)) (fun o => b1 (ix1 o))
    (fun o => w2 (ix2 o 0)) (b2 (ix1 0))

theorem G_apply (x : (⟨4, ![16, 256, 64, 64]⟩ : Shape).Idx → EReal) (w1 : (⟨2, ![3, 16]⟩ : Shape).Idx → EReal)
    (b1 : (⟨1, ![16]⟩ : Shape).Idx → EReal) (w2 : (⟨2, ![16, 1]⟩ : Shape).Idx → EReal)
    (b2 : (⟨1, ![1]⟩ : Shape).Idx → EReal) (b : Fin 16) (h w : Fin 64) :
    G x w1 b1 w2 b2 (ix3 b h w)
      = score (stat fun c => x (ix4 b c h w)) (fun i o => w1 (ix2 i o)) (fun o => b1 (ix1 o))
          (fun o => w2 (ix2 o 0)) (b2 (ix1 0)) := rfl

/-! ## The words -/

/-- The f32 word of 1.0 is the real 1. -/
theorem word_one : Ideal.ofBits .f32 0x3F800000#32 = 1 := by
  simp [Ideal.ofBits, Ideal.ieee]
  rw [← EReal.coe_mul, ← EReal.coe_one]
  exact congrArg _ (by norm_num)

/-- The f32 word of 256.0 is the real 256. -/
theorem word_256 : Ideal.ofBits .f32 0x43800000#32 = ((256 : ℝ) : EReal) := by
  simp [Ideal.ofBits, Ideal.ieee]
  rw [← EReal.coe_mul]
  exact congrArg _ (by norm_num)

/-- The f32 word of 255.0 is the real 255. -/
theorem word_255 : Ideal.ofBits .f32 0x437F0000#32 = ((255 : ℝ) : EReal) := by
  simp [Ideal.ofBits, Ideal.ieee]
  rw [← EReal.coe_mul]
  exact congrArg _ (by norm_num)

/-- The unbiased divisor spelt as a difference: the word of 256 minus the integer 1 is the word of 255. -/
theorem unbiased_count :
    Ideal.ofBits .f32 0x43800000#32 - (((1#32 : BitVec 32).toInt : ℝ) : EReal) = Ideal.ofBits .f32 0x437F0000#32 := by
  rw [word_256, word_255, ← EReal.coe_sub]
  exact congrArg _ (by norm_num)

/-- That divisor is above the zero word. -/
theorem count_pos :
    Ideal.cmp .ogt (Ideal.ofBits .f32 0x437F0000#32) (Ideal.ofBits .f32 0x00000000#32) = 1#1 := by
  rw [word_255, Ideal.ofBits_zero_f32]
  simp [Ideal.cmp]

/-- The logistic function spelt with the words of 1: 1 / (1 + exp (-z)). -/
theorem logistic_spelt (z : EReal) :
    Ideal.div (Ideal.ofBits .f32 0x3F800000#32) (Ideal.ofBits .f32 0x3F800000#32 + Ideal.exp (-z)) = Ideal.logistic z := by
  rw [word_one]; rfl

end Cert.PixelScore

end
-- ==== Proof.LibColsMatmul.lean ====
/-
  Rows against columns: the plain matrix product read at an index, whatever the operands' float formats.

  For x of shape [a, n] and w of shape [n, b], the product contracting axis 1 of x with axis 0 of w has shape [a, b],
  and its entry (p, e) is the sum over k < n of x(p, k) * w(k, e). On the extended reals the matrix-unit product into a
  zero accumulator is exactly that sum — also when the operands are held in shorter float formats than the
  accumulator, a change of format being the identity there.
-/
import Idealize.ShloMosaic.PureOps.Ideal.Laws
import Idealize.ShloMosaic.Lib.ValueIdx

noncomputable section

namespace Cert.ColsMatmul

open Idealize.ShloMosaic Idealize.ShloMosaic.ValueIdx

variable {a b n : ℕ}

/-- The dimension numbers "contract axis 1 of the left operand with axis 0 of the right, no batch axis". -/
abbrev colsDims (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, n]⟩ ⟨2, ![n, b]⟩ ⟨2, ![a, b]⟩ [1] [0] [0] [1] [] [])

/-- The left operand's index at output (p, e) and contraction index q: row p, -/
theorem lhs_row (i : (⟨2, ![a, b]⟩ : Shape).Idx) (q : (colsDims wf).contr.Idx) :
    ((colsDims wf).lhsIdx i q 0).val = (i 0).val := by
  unfold DotDims.lhsIdx
  rw [dif_neg (show ¬(0 : Fin (⟨2, ![a, n]⟩ : Shape).rank) ∈ (colsDims wf).lhsBatch from List.not_mem_nil),
    dif_pos (show (0 : Fin (⟨2, ![a, n]⟩ : Shape).rank) ∈ (colsDims wf).lhsNonContracting from List.mem_singleton.mpr rfl)]
  rfl
/-- column q. -/
theorem lhs_col (i : (⟨2, ![a, b]⟩ : Shape).Idx) (q : (colsDims wf).contr.Idx) :
    ((colsDims wf).lhsIdx i q 1).val = (q ⟨0, Nat.one_pos⟩).val :=
  (colsDims wf).lhsIdx_val_of_single rfl i q
/-- The right operand's: row q, -/
theorem rhs_row (i : (⟨2, ![a, b]⟩ : Shape).Idx) (q : (colsDims wf).contr.Idx) :
    ((colsDims wf).rhsIdx i q 0).val = (q ⟨0, Nat.one_pos⟩).val :=
  (colsDims wf).rhsIdx_val_of_single rfl i q
/-- column e. -/
theorem rhs_col (i : (⟨2, ![a, b]⟩ : Shape).Idx) (q : (colsDims wf).contr.Idx) :
    ((colsDims wf).rhsIdx i q 1).val = (i 1).val := by
  unfold DotDims.rhsIdx
  rw [dif_neg (show ¬(1 : Fin (⟨2, ![n, b]⟩ : Shape).rank) ∈ (colsDims wf).rhsBatch from List.not_mem_nil),
    dif_pos (show (1 : Fin (⟨2, ![n, b]⟩ : Shape).rank) ∈ (colsDims wf).rhsNonContracting from List.mem_singleton.mpr rfl)]
  rfl

/-- The contraction's sum at (p, e), re-indexed by the one contracted coordinate: row p of x against column e of w. -/
theorem contraction_cols (x : (⟨2, ![a, n]⟩ : Shape).Idx → EReal) (w : (⟨2, ![n, b]⟩ : Shape).Idx → EReal) (p : Fin a) (e : Fin b) :
    ∑ q : (colsDims wf).contr.Idx, x ((colsDims wf).lhsIdx (ix2 p e) q) * w ((colsDims wf).rhsIdx (ix2 p e) q)
      = ∑ k : Fin n, x (ix2 p k) * w (ix2 k e) := by
  rw [← Equiv.sum_comp (contrEquiv1 (colsDims wf) n rfl rfl).symm]
  refine Finset.sum_congr rfl fun k _ => ?_
  have hk := contrEquiv1_symm_val (colsDims wf) n rfl rfl k
  have el : (colsDims wf).lhsIdx (ix2 p e) ((contrEquiv1 (colsDims wf) n rfl rfl).symm k) = ix2 p k := funext fun ax => Fin.ext (by
    match ax with
    | ⟨0, _⟩ => exact lhs_row wf _ _
    | ⟨1, _⟩ => exact (lhs_col wf _ _).trans hk)
  have er : (colsDims wf).rhsIdx (ix2 p e) ((contrEquiv1 (colsDims wf) n rfl rfl).symm k) = ix2 k e := funext fun ax => Fin.ext (by
    match ax with
    | ⟨0, _⟩ => exact (rhs_row wf _ _).trans hk
    | ⟨1, _⟩ => exact rhs_col wf _ _)
  rw [el, er]

/-- The matrix-unit product of an [a, n] and an [n, b] operand of any float formats into the zero accumulator is, at
    (p, e), the sum over k of x(p,k) * w(k,e); the dimension record may be any record equal to `colsDims`. -/
theorem cols_matmul {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) (p : Fin a) (e : Fin b) :
    FloatOps.matmul d none x w (constant ⟨2, ![a, b]⟩ .f32 0x00000000#32) (ix2 p e)
      = ∑ k : Fin n, x (ix2 p k) * w (ix2 k e) := by
  subst hd
  exact (Ideal.matmul_constant_zero_apply (colsDims wf) none x w (ix2 p e)).trans (contraction_cols wf x w p e)

end Cert.ColsMatmul

end
-- ==== Proof.KernelPixel.lean ====
/-
  One grid point of the kernel at the exact values: the stored block as a function of the loaded blocks.
  The body holds one image, the 256 channel planes of 64 x 64 pixels. It forms per pixel the three clipped
  channel statistics, lays the pixels out as 4096 rows of 3, applies the 3-16-1 perceptron as two matrix
  products, and stores the 4096 scores as a 64 x 64 plane. Read at pixel (h, w) the stored value is the score of
  the statistics of that pixel's column of channels: row h * 64 + w of every intermediate matrix belongs to it.
-/
import proofs.«111932_j463856468232_1_alg».proof.Proof.Gen.KernelIdeal.Skeleton
import proofs.«111932_j463856468232_1_alg».proof.Proof.Pixel
import proofs.«111932_j463856468232_1_alg».proof.Proof.LibColsMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PixelValue

open Cert.KernelIdeal Cert.KernelIdeal.Gen Idealize.ShloMosaic Idealize.ShloMosaic.ValueIdx Cert.PixelScore

/-- The row of pixel (h, w) among the 4096 rows. -/
abbrev flat (h w : Fin 64) : Fin 4096 := ⟨h.val * 64 + w.val, by omega⟩

/-! ## The layout steps, each read at a pixel -/

/-- The image block without its unit batch axis. -/
theorem plane_at (x0 : Vec Ideal S1x256x64x64 .f32) (c : Fin 256) (h w : Fin 64) :
    shapeCast S256x64x64 x0 shapeCasts_S1x256x64x64_S256x64x64 (ix3 c h w) = x0 (ix4 (0 : Fin 1) c h w) :=
  shapeCast_1abc_abc_apply x0 _ c h w

/-- The sum over the channel axis at a pixel. -/
theorem chanSum_at (v : FVec Ideal S256x64x64 .f32) (h w : Fin 64) :
    multiReduction .add [0] S64x64 v 0x00000000#32 reduces_S256x64x64_S64x64 (.inl rfl) rfl (ix2 h w)
      = ∑ c : Fin 256, v (ix3 c h w) :=
  (Ideal.multiReduction_add_single v 0x00000000#32 reduces_S256x64x64_S64x64 (.inl rfl) rfl (ix2 h w)).trans
    (Finset.sum_congr rfl fun c _ => congrArg v (funext fun a => Fin.ext (by
      match a with
      | ⟨0, _⟩ => rfl
      | ⟨1, _⟩ => rfl
      | ⟨2, _⟩ => rfl)))

/-- A per-pixel plane laid back over the channels. -/
theorem overChannels_at (v : FVec Ideal S64x64 .f32) (c : Fin 256) (h w : Fin 64) :
    broadcastTo S256x64x64 (shapeCast S1x64x64 v shapeCasts_S64x64_S1x64x64) broadcasts_S1x64x64_S256x64x64 (ix3 c h w)
      = v (ix2 h w) := by
  refine (broadcastTo_apply _ broadcasts_S1x64x64_S256x64x64 (ix3 c h w) (ix3 (0 : Fin 1) h w) fun a => ?_).trans
    (shapeCast_ab_1ab_apply v _ 0 h w)
  match a with
  | ⟨0, _⟩ => rfl
  | ⟨1, _⟩ => rfl
  | ⟨2, _⟩ => rfl

/-- A per-pixel plane given a last axis of extent one. -/
theorem column_at (v : FVec Ideal S64x64 .f32) (h w : Fin 64) :
    shapeCast S64x64x1 v shapeCasts_S64x64_S64x64x1 (ix3 h w (0 : Fin 1)) = v (ix2 h w) :=
  shapeCast_apply v _ _ _ (by
    rw [Shape.rowMajor_val_three, Shape.rowMajor_val_two]
    show h.val * 64 + w.val = (h.val * 64 + w.val) * 1 + 0
    omega)

/-- The stack of three such planes read at (h, w, i). -/
theorem stack_at (v0 v1 v2 : FVec Ideal S64x64x1 .f32) (h w : Fin 64) (i : Fin 3) :
    concatenate S64x64x3 2 [⟨S64x64x1, v0⟩, ⟨S64x64x1, v1⟩, ⟨S64x64x1, v2⟩]
        concatenates_S64x64x1_S64x64x1_S64x64x1_S64x64x3_d2 (ix3 h w i)
      = ![v0 (ix3 h w (0 : Fin 1)), v1 (ix3 h w (0 : Fin 1)), v2 (ix3 h w (0 : Fin 1))] i := by
  have hi : ∀ b : Fin S64x64x1.rank, b.cast (rfl : S64x64x1.rank = S64x64x3.rank) ≠ (2 : Fin S64x64x3.rank) →
      ((ix3 h w (0 : Fin 1) : S64x64x1.Idx) b).val = ((ix3 h w i : S64x64x3.Idx) (b.cast rfl)).val := fun b hb => by
    match b with
    | ⟨0, _⟩ => rfl
    | ⟨1, _⟩ => rfl
    | ⟨2, _⟩ => exact absurd rfl hb
  match i with
  | ⟨0, _⟩ =>
    exact concatenate_apply_piece (2 : Fin S64x64x3.rank) _ _ (ix3 h w _) 0 (by show (0 : ℕ) < 3; omega) S64x64x1 v0 rfl rfl 0 rfl
      (ix3 h w (0 : Fin 1)) hi rfl
  | ⟨1, _⟩ =>
    exact concatenate_apply_piece (2 : Fin S64x64x3.rank) _ _ (ix3 h w _) 1 (by show (1 : ℕ) < 3; omega) S64x64x1 v1 rfl rfl 1 rfl
      (ix3 h w (0 : Fin 1)) hi rfl
  | ⟨2, _⟩ =>
    exact concatenate_apply_piece (2 : Fin S64x64x3.rank) _ _ (ix3 h w _) 2 (by show (2 : ℕ) < 3; omega) S64x64x1 v2 rfl rfl 2 rfl
      (ix3 h w (0 : Fin 1)) hi rfl

/-- The pixels as rows: row h * 64 + w, entry i, is the stack at (h, w, i). -/
theorem rows_at (v : FVec Ideal S64x64x3 .f32) (h w : Fin 64) (i : Fin 3) :
    shapeCast S4096x3 v shapeCasts_S64x64x3_S4096x3 (ix2 (flat h w) i) = v (ix3 h w i) :=
  shapeCast_apply v _ _ _ (by
    rw [Shape.rowMajor_val_three, Shape.rowMajor_val_two]
    show (h.val * 64 + w.val) * 3 + i.val = (h.val * 64 + w.val) * 3 + i.val
    rfl)

/-- The scores as a plane: pixel (h, w) of the stored block is row h * 64 + w of the one-column matrix. -/
theorem plane_of_rows_at (v : FVec Ideal S4096x1 .f32) (h w : Fin 64) :
    shapeCast S1x64x64 (shapeCast S64x64 (shapeCast S4096 v shapeCasts_S4096x1_S4096) shapeCasts_S4096_S64x64)
        shapeCasts_S64x64_S1x64x64 (ix3 (0 : Fin 1) h w)
      = v (ix2 (flat h w) (0 : Fin 1)) := by
  refine (shapeCast_ab_1ab_apply _ _ 0 h w).trans ?_
  refine (shapeCast_apply _ shapeCasts_S4096_S64x64 (ix2 h w) (ix1 (flat h w)) ?_).trans ?_
  · rw [Shape.rowMajor_val_two, Shape.rowMajor_val_one]
    show h.val * 64 + w.val = h.val * 64 + w.val
    rfl
  · exact shapeCast_apply v _ _ _ (by
      rw [Shape.rowMajor_val_two, Shape.rowMajor_val_one]
      show (h.val * 64 + w.val) * 1 + 0 = h.val * 64 + w.val
      omega)

/-- The hidden bias laid along the rows. -/
theorem bias16_at (v : Vec Ideal S16 .f32) (p : Fin 4096) (o : Fin 16) :
    broadcastTo S4096x16 (shapeCast S1x16 v shapeCasts_S16_S1x16) broadcasts_S1x16_S4096x16 (ix2 p o) = v (ix1 o) :=
  (broadcastTo_1b_ab_apply _ _ p o).trans (shapeCast_a_1a_apply v _ 0 o)

/-- The output bias laid along the rows. -/
theorem bias1_at (v : Vec Ideal S1 .f32) (p : Fin 4096) :
    broadcastTo S4096x1 (shapeCast S1x1 v shapeCasts_S1_S1x1) broadcasts_S1x1_S4096x1 (ix2 p (0 : Fin 1)) = v (ix1 (0 : Fin 1)) :=
  (broadcastTo_1b_ab_apply _ _ p 0).trans (shapeCast_a_1a_apply v _ 0 0)

/-- The first product: row p of the statistics against column o of W1. -/
theorem hiddenProduct_at (s : FVec Ideal S4096x3 .f32) (w1 : FVec Ideal S3x16 .f32) (p : Fin 4096) (o : Fin 16) :
    matmul dot_S4096x3_S3x16_S4096x16_1_0_0_1_n_n none s w1 (constant S4096x16 .f32 0x00000000#32) (ix2 p o)
      = ∑ i : Fin 3, s (ix2 p i) * w1 (ix2 i o) :=
  Cert.ColsMatmul.cols_matmul dot_S4096x3_S3x16_S4096x16_1_0_0_1_n_n_wf _ rfl s w1 p o

/-- The second product: row p of the hidden layer against the one column of W2. -/
theorem outProduct_at (g : FVec Ideal S4096x16 .f32) (w2 : FVec Ideal S16x1 .f32) (p : Fin 4096) :
    matmul dot_S4096x16_S16x1_S4096x1_1_0_0_1_n_n none g w2 (constant S4096x1 .f32 0x00000000#32) (ix2 p (0 : Fin 1))
      = ∑ o : Fin 16, g (ix2 p o) * w2 (ix2 o (0 : Fin 1)) :=
  Cert.ColsMatmul.cols_matmul dot_S4096x16_S16x1_S4096x1_1_0_0_1_n_n_wf _ rfl g w2 p 0

/-! ## The body's arithmetic in named stages -/

/-- The channel mean of every pixel. -/
def mean64 (v1 : FVec Ideal S256x64x64 .f32) : FVec Ideal S64x64 .f32 :=
  divf (multiReduction .add [0] S64x64 v1 0x00000000#32 reduces_S256x64x64_S64x64 (.inl rfl) rfl)
    (broadcast S64x64 (Scalar.ofBits .f32 0x43800000#32))

/-- The channel mean of squares of every pixel. -/
def sqMean64 (v1 : FVec Ideal S256x64x64 .f32) : FVec Ideal S64x64 .f32 :=
  divf (multiReduction .add [0] S64x64 (mulf v1 v1) 0x00000000#32 reduces_S256x64x64_S64x64 (.inl rfl) rfl)
    (broadcast S64x64 (Scalar.ofBits .f32 0x43800000#32))

/-- Every entry minus its pixel's channel mean. -/
def dev (v1 : FVec Ideal S256x64x64 .f32) : FVec Ideal S256x64x64 .f32 :=
  subf v1 (broadcastTo S256x64x64 (shapeCast S1x64x64 (mean64 v1) shapeCasts_S64x64_S1x64x64) broadcasts_S1x64x64_S256x64x64)

/-- The unbiased channel variance of every pixel. -/
def var64 (v1 : FVec Ideal S256x64x64 .f32) : FVec Ideal S64x64 .f32 :=
  divf (multiReduction .add [0] S64x64 (mulf (dev v1) (dev v1)) 0x00000000#32 reduces_S256x64x64_S64x64 (.inl rfl) rfl)
    (broadcast S64x64 (Scalar.ofBits .f32 0x437F0000#32))

/-- Clipping a plane to [0, 1]. -/
def clip64 (v : FVec Ideal S64x64 .f32) : FVec Ideal S64x64 .f32 :=
  minimumf (broadcast S64x64 (Scalar.ofBits .f32 0x3F800000#32)) (maximumf (broadcast S64x64 (Scalar.ofBits .f32 0x00000000#32)) v)

/-- The 4096 rows of three statistics. -/
def statRows (v1 : FVec Ideal S256x64x64 .f32) : FVec Ideal S4096x3 .f32 :=
  shapeCast S4096x3
    (concatenate S64x64x3 2
      [⟨S64x64x1, shapeCast S64x64x1 (clip64 (sqrt (sqMean64 v1))) shapeCasts_S64x64_S64x64x1⟩,
        ⟨S64x64x1, shapeCast S64x64x1 (clip64 (var64 v1)) shapeCasts_S64x64_S64x64x1⟩,
        ⟨S64x64x1, shapeCast S64x64x1 (clip64 (sqrt (var64 v1))) shapeCasts_S64x64_S64x64x1⟩]
      concatenates_S64x64x1_S64x64x1_S64x64x1_S64x64x3_d2)
    shapeCasts_S64x64x3_S4096x3

/-- The body's statistics matrix is that, of the image block without its unit axis. -/
theorem pay2_eq (x0 : Vec Ideal S1x256x64x64 .f32) :
    k0_pay2 (F := Ideal) x0 = statRows (shapeCast S256x64x64 x0 shapeCasts_S1x256x64x64_S256x64x64) := rfl

/-- The hidden layer of every row. -/
def hidden4096 (s : FVec Ideal S4096x3 .f32) (w1 : FVec Ideal S3x16 .f32) (b1 : FVec Ideal S16 .f32) : FVec Ideal S4096x16 .f32 :=
  maximumf
    (addf (matmul dot_S4096x3_S3x16_S4096x16_1_0_0_1_n_n none s w1 (constant S4096x16 .f32 0x00000000#32))
      (broadcastTo S4096x16 (shapeCast S1x16 b1 shapeCasts_S16_S1x16) broadcasts_S1x16_S4096x16))
    (broadcast S4096x16 (Scalar.ofBits .f32 0x00000000#32))

/-- The output layer of every row, before the logistic function. -/
def logit4096 (s : FVec Ideal S4096x3 .f32) (w1 : FVec Ideal S3x16 .f32) (b1 : FVec Ideal S16 .f32) (w2 : FVec Ideal S16x1 .f32)
    (b2 : FVec Ideal S1 .f32) : FVec Ideal S4096x1 .f32 :=
  addf (matmul dot_S4096x16_S16x1_S4096x1_1_0_0_1_n_n none (hidden4096 s w1 b1) w2 (constant S4096x1 .f32 0x00000000#32))
    (broadcastTo S4096x1 (shapeCast S1x1 b2 shapeCasts_S1_S1x1) broadcasts_S1x1_S4096x1)

/-- The stored block is the logistic function of that, as a plane. -/
theorem pay1_eq (s : FVec Ideal S4096x3 .f32) (w1 : Vec Ideal S3x16 .f32) (b1 : Vec Ideal S16 .f32) (w2 : Vec Ideal S16x1 .f32)
    (b2 : Vec Ideal S1 .f32) :
    k0_pay1 (F := Ideal) s w1 b1 w2 b2
      = shapeCast S1x64x64 (shapeCast S64x64 (shapeCast S4096 (logistic (logit4096 s w1 b1 w2 b2)) shapeCasts_S4096x1_S4096)
          shapeCasts_S4096_S64x64) shapeCasts_S64x64_S1x64x64 := rfl

/-! ## Each stage at a pixel -/

theorem mean64_at (v1 : FVec Ideal S256x64x64 .f32) (h w : Fin 64) :
    mean64 v1 (ix2 h w) = chanMean fun c => v1 (ix3 c h w) := by
  show Ideal.div (multiReduction .add [0] S64x64 v1 0x00000000#32 reduces_S256x64x64_S64x64 (.inl rfl) rfl (ix2 h w))
    (Ideal.ofBits .f32 0x43800000#32) = _
  rw [chanSum_at]; rfl

theorem sqMean64_at (v1 : FVec Ideal S256x64x64 .f32) (h w : Fin 64) :
    sqMean64 v1 (ix2 h w) = sqMean fun c => v1 (ix3 c h w) := by
  show Ideal.div (multiReduction .add [0] S64x64 (mulf v1 v1) 0x00000000#32 reduces_S256x64x64_S64x64 (.inl rfl) rfl (ix2 h w))
    (Ideal.ofBits .f32 0x43800000#32) = _
  rw [chanSum_at]; rfl

theorem dev_at (v1 : FVec Ideal S256x64x64 .f32) (c : Fin 256) (h w : Fin 64) :
    dev v1 (ix3 c h w) = v1 (ix3 c h w) - chanMean fun c' => v1 (ix3 c' h w) := by
  show v1 (ix3 c h w) - broadcastTo S256x64x64 (shapeCast S1x64x64 (mean64 v1) shapeCasts_S64x64_S1x64x64)
    broadcasts_S1x64x64_S256x64x64 (ix3 c h w) = _
  rw [overChannels_at, mean64_at]

theorem var64_at (v1 : FVec Ideal S256x64x64 .f32) (h w : Fin 64) :
    var64 v1 (ix2 h w) = variance fun c => v1 (ix3 c h w) := by
  show Ideal.div (multiReduction .add [0] S64x64 (mulf (dev v1) (dev v1)) 0x00000000#32 reduces_S256x64x64_S64x64 (.inl rfl) rfl
    (ix2 h w)) (Ideal.ofBits .f32 0x437F0000#32) = _
  rw [chanSum_at]
  unfold variance
  refine congrArg (Ideal.div · _) (Finset.sum_congr rfl fun c _ => ?_)
  show dev v1 (ix3 c h w) * dev v1 (ix3 c h w) = _
  rw [dev_at]

theorem clip64_at (v : FVec Ideal S64x64 .f32) (h w : Fin 64) : clip64 v (ix2 h w) = clipUnit (v (ix2 h w)) := rfl

/-- The statistics matrix at the row of pixel (h, w). -/
theorem statRows_at (v1 : FVec Ideal S256x64x64 .f32) (h w : Fin 64) (i : Fin 3) :
    statRows v1 (ix2 (flat h w) i) = stat (fun c => v1 (ix3 c h w)) i := by
  unfold statRows
  refine (rows_at _ h w i).trans ((stack_at _ _ _ h w i).trans ?_)
  rw [column_at, column_at, column_at, clip64_at, clip64_at, clip64_at]
  show ![clipUnit (Ideal.sqrt (sqMean64 v1 (ix2 h w))), clipUnit (var64 v1 (ix2 h w)),
    clipUnit (Ideal.sqrt (var64 v1 (ix2 h w)))] i = _
  rw [sqMean64_at, var64_at]
  rfl

/-- The hidden layer at a row: the hidden units of that row's statistics. -/
theorem hidden4096_at (s : FVec Ideal S4096x3 .f32) (w1 : FVec Ideal S3x16 .f32) (b1 : FVec Ideal S16 .f32) (p : Fin 4096) (o : Fin 16) :
    hidden4096 s w1 b1 (ix2 p o) = hidden (fun i => s (ix2 p i)) (fun i o => w1 (ix2 i o)) (fun o => b1 (ix1 o)) o := by
  show max (matmul dot_S4096x3_S3x16_S4096x16_1_0_0_1_n_n none s w1 (constant S4096x16 .f32 0x00000000#32) (ix2 p o)
    + broadcastTo S4096x16 (shapeCast S1x16 b1 shapeCasts_S16_S1x16) broadcasts_S1x16_S4096x16 (ix2 p o))
    (Ideal.ofBits .f32 0x00000000#32) = _
  rw [hiddenProduct_at, bias16_at]
  rfl

/-- The output layer at a row. -/
theorem logit4096_at (s : FVec Ideal S4096x3 .f32) (w1 : FVec Ideal S3x16 .f32) (b1 : FVec Ideal S16 .f32) (w2 : FVec Ideal S16x1 .f32)
    (b2 : FVec Ideal S1 .f32) (p : Fin 4096) :
    logit4096 s w1 b1 w2 b2 (ix2 p (0 : Fin 1))
      = (∑ o : Fin 16, hidden (fun i => s (ix2 p i)) (fun i o => w1 (ix2 i o)) (fun o => b1 (ix1 o)) o * w2 (ix2 o (0 : Fin 1)))
        + b2 (ix1 (0 : Fin 1)) := by
  show matmul dot_S4096x16_S16x1_S4096x1_1_0_0_1_n_n none (hidden4096 s w1 b1) w2 (constant S4096x1 .f32 0x00000000#32) (ix2 p (0 : Fin 1))
    + broadcastTo S4096x1 (shapeCast S1x1 b2 shapeCasts_S1_S1x1) broadcasts_S1x1_S4096x1 (ix2 p (0 : Fin 1)) = _
  rw [outProduct_at, bias1_at]
  refine congrArg (· + _) (Finset.sum_congr rfl fun o _ => ?_)
  rw [hidden4096_at]

/-! ## The stored block at a pixel -/

/-- What one grid point stores at pixel (h, w): the score of the statistics of that pixel's column of channels in the
    loaded image block, under the loaded weights. -/
theorem stored_at (x0 : Vec Ideal S1x256x64x64 .f32) (w1 : Vec Ideal S3x16 .f32) (b1 : Vec Ideal S16 .f32)
    (w2 : Vec Ideal S16x1 .f32) (b2 : Vec Ideal S1 .f32) (h w : Fin 64) :
    k0_pay1 (F := Ideal) (k0_pay2 x0) w1 b1 w2 b2 (ix3 (0 : Fin 1) h w)
      = score (stat fun c => x0 (ix4 (0 : Fin 1) c h w)) (fun i o => w1 (ix2 i o)) (fun o => b1 (ix1 o))
          (fun o => w2 (ix2 o (0 : Fin 1))) (b2 (ix1 (0 : Fin 1))) := by
  rw [pay1_eq, pay2_eq]
  refine (plane_of_rows_at _ h w).trans ?_
  show Ideal.logistic (logit4096 _ w1 b1 w2 b2 (ix2 (flat h w) (0 : Fin 1))) = _
  rw [logit4096_at]
  unfold score
  refine congrArg (fun t => Ideal.logistic (t + _)) (Finset.sum_congr rfl fun o _ => ?_)
  refine congrArg (fun f => hidden f _ _ o * _) (funext fun i => ?_)
  rw [statRows_at]
  exact congrArg (fun col => stat col i) (funext fun c => plane_at x0 c h w)

end Cert.KernelIdeal.PixelValue

end
-- ==== Proof.KernelValue.lean ====
/-
  From grid points to the whole array. The grid has one point per image: point t loads image t
  (block t of the feature array along its first axis) and all of the four weight arrays, and writes back plane t
  of the result. So what point t writes is block t of the per-pixel function G of the argument arrays, the 16
  planes cover the result array, and after the run the result array is G of the arguments.
-/
import proofs.«111932_j463856468232_1_alg».proof.Proof.Gen.KernelIdeal.Value
import proofs.«111932_j463856468232_1_alg».proof.Proof.KernelPixel
import Idealize.ShloMosaic.Lib.Pipeline.Value

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.Value Cert.KernelIdeal.PixelValue Cert.PixelScore
open Idealize.ShloMosaic.ValueIdx

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The image a grid point works on. -/
abbrev imageOf (t : Fin cfg0.N) : Fin 16 := ⟨t.val, by have h := t.isLt; have e : cfg0.N = 16 := N_0; omega⟩

/-- The index maps over the grid: the feature window and the result window are at block t along the first axis and
    block 0 along the others; the weight windows are at block 0. -/
theorem idx_facts : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 3) = t.val ∧ win0_5.index t (1 : Fin 3) = 0 ∧ win0_5.index t (2 : Fin 3) = 0 :=
  (by decide +kernel : ∀ t : Fin grid0.N, _)

/-! ## The loaded blocks, read off the argument arrays -/

/-- The feature block at point t is image t. -/
theorem image_block (c : Dev nD) (t : Fin cfg0.N) (u : Fin 1) (ch : Fin 256) (h w : Fin 64) :
    (iblk m c 0 t : Vec Ideal S1x256x64x64 .f32) (ix4 u ch h w)
      = (m ((c : Thread nD τ).loc main_arg0) : S16x256x64x64.Idx → Elt Ideal .f32) (ix4 (imageOf t) ch h w) := by
  obtain ⟨e0, e1, e2, e3, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 4) * 1 + 1 * u.val = t.val; rw [e0]; omega
  | ⟨1, _⟩ => show win0_0.index t (1 : Fin 4) * 256 + 1 * ch.val = ch.val; rw [e1]; omega
  | ⟨2, _⟩ => show win0_0.index t (2 : Fin 4) * 64 + 1 * h.val = h.val; rw [e2]; omega
  | ⟨3, _⟩ => show win0_0.index t (3 : Fin 4) * 64 + 1 * w.val = w.val; rw [e3]; omega

/-- The W1 block at every point is W1. -/
theorem w1_block (c : Dev nD) (t : Fin cfg0.N) (i : Fin 3) (o : Fin 16) :
    (iblk m c 1 t : Vec Ideal S3x16 .f32) (ix2 i o)
      = (m ((c : Thread nD τ).loc main_arg1) : S3x16.Idx → Elt Ideal .f32) (ix2 i o) := by
  obtain ⟨-, -, -, -, e0, e1, -⟩ := idx_facts t
  unfold iblk
  rw [View.read_apply]
  show V m c main_arg1 _ = m (c.tc.loc main_arg1) _
  unfold V
  congr 1
  funext a
  apply Fin.ext
  match a with
  | ⟨0, _⟩ => show win0_1.index t (0 : Fin 2) * 3 + 1 * i.val = i.val; rw [e0]; omega
  | ⟨1, _⟩ => show win0_1.index t (1 : Fin 2) * 16 + 1 * o.val = o.val; rw [e1]; omega

/-- The b1 block at every point is b1. -/
theorem b1_block (c : Dev nD) (t : Fin cfg0.N) (o : Fin 16) :
    (iblk m c 2 t : Vec Ideal S16 .f32) (ix1 o)
      = (m ((c : Thread nD τ).loc main_arg2) : S16.Idx → Elt Ideal .f32) (ix1 o) := by
  obtain ⟨-, -, -, -, -, -, e0, -⟩ := idx_facts t
  unfold iblk
  rw [View.read_apply]
  show V m c main_arg2 _ = m (c.tc.loc main_arg2) _
  unfold V
  congr 1
  funext a
  apply Fin.ext
  match a with
  | ⟨0, _⟩ => show win0_2.index t (0 : Fin 1) * 16 + 1 * o.val = o.val; rw [e0]; omega

/-- The W2 block at every point is W2. -/
theorem w2_block (c : Dev nD) (t : Fin cfg0.N) (o : Fin 16) (u : Fin 1) :
    (iblk m c 3 t : Vec Ideal S16x1 .f32) (ix2 o u)
      = (m ((c : Thread nD τ).loc main_arg3) : S16x1.Idx → Elt Ideal .f32) (ix2 o u) := by
  obtain ⟨-, -, -, -, -, -, -, e0, e1, -⟩ := idx_facts t
  unfold iblk
  rw [View.read_apply]
  show V m c main_arg3 _ = m (c.tc.loc main_arg3) _
  unfold V
  congr 1
  funext a
  apply Fin.ext
  match a with
  | ⟨0, _⟩ => show win0_3.index t (0 : Fin 2) * 16 + 1 * o.val = o.val; rw [e0]; omega
  | ⟨1, _⟩ => show win0_3.index t (1 : Fin 2) * 1 + 1 * u.val = u.val; rw [e1]; omega

/-- The b2 block at every point is b2. -/
theorem b2_block (c : Dev nD) (t : Fin cfg0.N) (u : Fin 1) :
    (iblk m c 4 t : Vec Ideal S1 .f32) (ix1 u)
      = (m ((c : Thread nD τ).loc main_arg4) : S1.Idx → Elt Ideal .f32) (ix1 u) := by
  obtain ⟨-, -, -, -, -, -, -, -, -, e0, -⟩ := idx_facts t
  unfold iblk
  rw [View.read_apply]
  show V m c main_arg4 _ = m (c.tc.loc main_arg4) _
  unfold V
  congr 1
  funext a
  apply Fin.ext
  match a with
  | ⟨0, _⟩ => show win0_4.index t (0 : Fin 1) * 1 + 1 * u.val = u.val; rw [e0]; omega

/-! ## What a point writes -/

/-- The per-pixel function of the argument arrays as launched. -/
abbrev result (c : Dev nD) : S16x64x64.Idx → Elt Ideal .f32 :=
  G (m ((c : Thread nD τ).loc main_arg0)) (m ((c : Thread nD τ).loc main_arg1)) (m ((c : Thread nD τ).loc main_arg2))
    (m ((c : Thread nD τ).loc main_arg3)) (m ((c : Thread nD τ).loc main_arg4))

/-- The block point t stores, at pixel (h, w), is the result function at (t, h, w). -/
theorem stored_block (c : Dev nD) (t : Fin cfg0.N) (u : Fin 1) (h w : Fin 64) :
    k0_pay1 (F := Ideal) (k0_pay2 (iblk m c 0 t)) (iblk m c 1 t) (iblk m c 2 t) (iblk m c 3 t) (iblk m c 4 t) (ix3 u h w)
      = result m c (ix3 (imageOf t) h w) := by
  obtain rfl : u = 0 := Subsingleton.elim _ _
  refine (stored_at (iblk m c 0 t) (iblk m c 1 t) (iblk m c 2 t) (iblk m c 3 t) (iblk m c 4 t) h w).trans ?_
  have e0 : (fun ch : Fin 256 => (iblk m c 0 t : Vec Ideal S1x256x64x64 .f32) (ix4 (0 : Fin 1) ch h w))
      = fun ch => (m ((c : Thread nD τ).loc main_arg0) : S16x256x64x64.Idx → Elt Ideal .f32) (ix4 (imageOf t) ch h w) :=
    funext fun ch => image_block m c t 0 ch h w
  have e1 : (fun (i : Fin 3) (o : Fin 16) => (iblk m c 1 t : Vec Ideal S3x16 .f32) (ix2 i o))
      = fun i o => (m ((c : Thread nD τ).loc main_arg1) : S3x16.Idx → Elt Ideal .f32) (ix2 i o) :=
    funext fun i => funext fun o => w1_block m c t i o
  have e2 : (fun o : Fin 16 => (iblk m c 2 t : Vec Ideal S16 .f32) (ix1 o))
      = fun o => (m ((c : Thread nD τ).loc main_arg2) : S16.Idx → Elt Ideal .f32) (ix1 o) :=
    funext fun o => b1_block m c t o
  have e3 : (fun o : Fin 16 => (iblk m c 3 t : Vec Ideal S16x1 .f32) (ix2 o (0 : Fin 1)))
      = fun o => (m ((c : Thread nD τ).loc main_arg3) : S16x1.Idx → Elt Ideal .f32) (ix2 o (0 : Fin 1)) :=
    funext fun o => w2_block m c t o 0
  have e4 := b2_block m c t 0
  rw [e0, e1, e2, e3, e4]
  rfl

/-- What point t writes back is block t of the result function. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero hz3]
  simp only [View.ld_unit_zero (S := S1x256x64x64) hz4, View.ld_unit_zero (S := S3x16) hz2, View.ld_unit_zero (S := S16) hz1,
    View.ld_unit_zero (S := S16x1) hz2, View.ld_unit_zero (S := S1) hz1]
  obtain ⟨-, -, -, -, -, -, -, -, -, -, e0, e1, e2⟩ := idx_facts t
  funext y
  show k0_pay1 (F := Ideal) (k0_pay2 (iblk m c 0 t)) (iblk m c 1 t) (iblk m c 2 t) (iblk m c 3 t) (iblk m c 4 t) y
    = result m c (((cfg0.win 5).blk t).view.emb y)
  have hemb : ((cfg0.win 5).blk t).view.emb y = ix3 (imageOf t) (y 1) (y 2) := by
    funext a
    apply Fin.ext
    match a with
    | ⟨0, _⟩ => show win0_5.index t (0 : Fin 3) * 1 + 1 * (y 0).val = t.val; have hy : (y 0).val < 1 := (y 0).isLt; rw [e0]; omega
    | ⟨1, _⟩ => show win0_5.index t (1 : Fin 3) * 64 + 1 * (y 1).val = (y 1).val; rw [e1]; omega
    | ⟨2, _⟩ => show win0_5.index t (2 : Fin 3) * 64 + 1 * (y 2).val = (y 2).val; rw [e2]; omega
  rw [hemb]
  exact (congrArg _ (eq_ix3 y)).trans (stored_block m c t (y 0) (y 1) (y 2))

/-! ## The planes cover the array -/

theorem mem_blk (t : Fin cfg0.N) (i : S16x64x64.Idx) :
    i ∈ ((cfg0.win 5).blk t).view.set ↔ ∀ a : Fin 3, win0_5.index t a * S1x64x64.size a ≤ (i a).val
      ∧ (i a).val < win0_5.index t a * S1x64x64.size a + S1x64x64.size a := by
  show i ∈ ((View.whole main_v0).slice (win0_5.rect t)).set ↔ _
  rw [View.set_slice_whole, Rect.mem_set_unit]
  exact Iff.rfl

/-- Every index of the result array is in the plane of the point named by its first coordinate. -/
theorem cover (i : S16x64x64.Idx) :
    ∃ t : Fin cfg0.N, (cfg0.win 5).flush t = true ∧ i ∈ ((cfg0.win 5).blk t).view.set := by
  have hN : cfg0.N = 16 := N_0
  have h0 : (i 0).val < 16 := (i 0).isLt
  have h1 : (i 1).val < 64 := (i 1).isLt
  have h2 : (i 2).val < 64 := (i 2).isLt
  have ht : (i 0).val < cfg0.N := by omega
  refine ⟨⟨(i 0).val, ht⟩, flush0_5 _, ?_⟩
  rw [mem_blk]
  obtain ⟨-, -, -, -, -, -, -, -, -, -, e0', e1, e2⟩ := idx_facts ⟨(i 0).val, ht⟩
  have e0 : win0_5.index ⟨(i 0).val, ht⟩ (0 : Fin 3) = (i 0).val := e0'
  intro a
  match a with
  | ⟨0, _⟩ =>
    show win0_5.index ⟨(i 0).val, _⟩ (0 : Fin 3) * 1 ≤ (i 0).val ∧ (i 0).val < win0_5.index ⟨(i 0).val, _⟩ (0 : Fin 3) * 1 + 1
    rw [e0]; omega
  | ⟨1, _⟩ =>
    show win0_5.index ⟨(i 0).val, _⟩ (1 : Fin 3) * 64 ≤ (i 1).val ∧ (i 1).val < win0_5.index ⟨(i 0).val, _⟩ (1 : Fin 3) * 64 + 64
    rw [e1]; omega
  | ⟨2, _⟩ =>
    show win0_5.index ⟨(i 0).val, _⟩ (2 : Fin 3) * 64 ≤ (i 2).val ∧ (i 2).val < win0_5.index ⟨(i 0).val, _⟩ (2 : Fin 3) * 64 + 64
    rw [e2]; omega

/-- After the run the result array is the per-pixel function of the arguments. -/
theorem final (c : Dev nD) : (dats m 0 c).arrAt 5 cfg0.N = result m c :=
  (dats m 0 c).arrAt_eq_of_cover 5 (result m c) (fun t _ => flushed_eq m c t) cover

/-- The kernel's run: the result array at the per-pixel function of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.ArrayValue

end
-- ==== Proof.RefRun.lean ====
/-
  The reference program's @main as ONE list of its 79 host operations, and its run.

  @main calls four outlined functions: the unbiased variance over the channel axis (which itself calls the
  selection between a value and a scalar laid over every pixel), the clipping to an interval (three times) and the
  flooring at zero. A call executes the callee's body on the operands, each value of the body in a buffer of its
  own, so the straight line below lists, at each call, the callee's operations over that call's buffer record:
  8 operations, then the variance's 19 and the selection's 3, then the second square root and, three times, two
  bounds and the clipping's 6, then the stacking, the two layers (with the flooring's 3 between them) and the
  squashing. Every weakly fair execution terminates with every buffer at the fold of these operations over the
  launch contents.
-/
import proofs.«111932_j463856468232_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 79 operations in order, each call's operations in place over the call's buffers. -/
abbrev ops : List (HloOp τ sig (Elt F)) :=
  [
    StableHlo.binary main_arg0 main_arg0 main_v0 (mulf : (⟨S16x256x64x64, .f32⟩ : BufTy).Contents (Elt F) → (⟨S16x256x64x64, .f32⟩ : BufTy).Contents (Elt F) → (⟨S16x256x64x64, .f32⟩ : BufTy).Contents (Elt F)),
    StableHlo.nullary main_cst (constant S_ .f32 0x00000000#32),
    StableHlo.binary main_v0 main_cst main_v1 ((fun x v => Host.reduceAdd x v reducesTo_S16x256x64x64_S16x64x64_d1 h_S_) : (⟨S16x256x64x64, .f32⟩ : BufTy).Contents (Elt F) → (⟨S_, .f32⟩ : BufTy).Contents (Elt F) → (⟨S16x64x64, .f32⟩ : BufTy).Contents (Elt F)),
    StableHlo.nullary main_cst_0 (constant S_ .f32 0x43800000#32),
    StableHlo.unary main_cst_0 main_v2 (broadcastInDim S16x64x64 ![] bcast_S_S16x64x64 : (⟨S_, .f32⟩ : BufTy).Contents (Elt F) → (⟨S16x64x64, .f32⟩ : BufTy).Contents (Elt F)),
    StableHlo.binary main_v1 main_v2 main_v3 (Host.divf : (⟨S16x64x64, .f32⟩ : BufTy).Contents (Elt F) → (⟨S16x64x64, .f32⟩ : BufTy).Contents (Elt F) → (⟨S16x64x64, .f32⟩ : BufTy).Contents (Elt F)),
    StableHlo.unary main_v3 main_v4 (Host.sqrt : (⟨S16x64x64, .f32⟩ : BufTy).Contents (Elt F) → (⟨S16x64x64, .f32⟩ : BufTy).Contents (Elt F)),
    StableHlo.nullary main_c (constantI S_ 32 1#32),
    StableHlo.TRef.nullary main_call0.cst (constant S_ .f32 0x00000000#32),
    StableHlo.TRef.binary (.of main_arg0 : StableHlo.TRef sig ⟨S16x256x64x64, .f32⟩) main_call0.cst main_call0.v0 (fun x v => Host.reduceAdd x v reducesTo_S16x256x64x64_S16x64x64_d1 h_S_),
    StableHlo.TRef.unary main_call0.v0 main_call0.v1 (broadcastInDim S16x1x64x64 ![0, 2, 3] bcast_S16x64x64_S16x1x64x64_0_2_3),
    StableHlo.TRef.nullary main_call0.cst_0 (constant S_ .f32 0x43800000#32),
    StableHlo.TRef.unary main_call0.cst_0 main_call0.v2 (broadcastInDim S16x1x64x64 ![] bcast_S_S16x1x64x64),
    StableHlo.TRef.binary main_call0.v1 main_call0.v2 main_call0.v3 Host.divf,
    StableHlo.TRef.unary main_call0.v3 main_call0.v4 (broadcastInDim S16x256x64x64 ![0, 1, 2, 3] bcast_S16x1x64x64_S16x256x64x64_0_1_2_3),
    StableHlo.TRef.binary (.of main_arg0 : StableHlo.TRef sig ⟨S16x256x64x64, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x43800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S16x256x64x64_S16x64x64_d1 h_S_),
    StableHlo.TRef.unary main_call0.v8 main_call0.v10 (broadcastInDim S16x64x64 ![] bcast_S_S16x64x64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S16x64x64 ![] bcast_S_S16x64x64),
    StableHlo.TRef.ternary main_call0.v12 main_call0.v11 main_call0.call0.v1 main_call0.call0.v2 (fun p a b => select (broadcastInDim S16x64x64 ![] bcast_S_S16x64x64 p) a b),
    StableHlo.unary main_v5 main_v6 (Host.sqrt : (⟨S16x64x64, .f32⟩ : BufTy).Contents (Elt F) → (⟨S16x64x64, .f32⟩ : BufTy).Contents (Elt F)),
    StableHlo.nullary main_cst_1 (constant S_ .f32 0x00000000#32),
    StableHlo.nullary main_cst_2 (constant S_ .f32 0x3F800000#32),
    StableHlo.TRef.unary (.of main_cst_1 : StableHlo.TRef sig ⟨S_, .f32⟩) main_call1.v0 id,
    StableHlo.TRef.unary main_call1.v0 main_call1.v1 (broadcastInDim S16x64x64 ![] bcast_S_S16x64x64),
    StableHlo.TRef.binary main_call1.v1 (.of main_v4 : StableHlo.TRef sig ⟨S16x64x64, .f32⟩) main_call1.v2 maximumf,
    StableHlo.TRef.unary (.of main_cst_2 : StableHlo.TRef sig ⟨S_, .f32⟩) main_call1.v3 id,
    StableHlo.TRef.unary main_call1.v3 main_call1.v4 (broadcastInDim S16x64x64 ![] bcast_S_S16x64x64),
    StableHlo.TRef.binary main_call1.v4 main_call1.v2 main_call1.v5 minimumf,
    StableHlo.nullary main_cst_3 (constant S_ .f32 0x00000000#32),
    StableHlo.nullary main_cst_4 (constant S_ .f32 0x3F800000#32),
    StableHlo.TRef.unary (.of main_cst_3 : StableHlo.TRef sig ⟨S_, .f32⟩) main_call2.v0 id,
    StableHlo.TRef.unary main_call2.v0 main_call2.v1 (broadcastInDim S16x64x64 ![] bcast_S_S16x64x64),
    StableHlo.TRef.binary main_call2.v1 (.of main_v5 : StableHlo.TRef sig ⟨S16x64x64, .f32⟩) main_call2.v2 maximumf,
    StableHlo.TRef.unary (.of main_cst_4 : StableHlo.TRef sig ⟨S_, .f32⟩) main_call2.v3 id,
    StableHlo.TRef.unary main_call2.v3 main_call2.v4 (broadcastInDim S16x64x64 ![] bcast_S_S16x64x64),
    StableHlo.TRef.binary main_call2.v4 main_call2.v2 main_call2.v5 minimumf,
    StableHlo.nullary main_cst_5 (constant S_ .f32 0x00000000#32),
    StableHlo.nullary main_cst_6 (constant S_ .f32 0x3F800000#32),
    StableHlo.TRef.unary (.of main_cst_5 : StableHlo.TRef sig ⟨S_, .f32⟩) main_call3.v0 id,
    StableHlo.TRef.unary main_call3.v0 main_call3.v1 (broadcastInDim S16x64x64 ![] bcast_S_S16x64x64),
    StableHlo.TRef.binary main_call3.v1 (.of main_v6 : StableHlo.TRef sig ⟨S16x64x64, .f32⟩) main_call3.v2 maximumf,
    StableHlo.TRef.unary (.of main_cst_6 : StableHlo.TRef sig ⟨S_, .f32⟩) main_call3.v3 id,
    StableHlo.TRef.unary main_call3.v3 main_call3.v4 (broadcastInDim S16x64x64 ![] bcast_S_S16x64x64),
    StableHlo.TRef.binary main_call3.v4 main_call3.v2 main_call3.v5 minimumf,
    StableHlo.unary main_v7 main_v10 (broadcastInDim S16x64x64x1 ![0, 1, 2] bcast_S16x64x64_S16x64x64x1_0_1_2 : (⟨S16x64x64, .f32⟩ : BufTy).Contents (Elt F) → (⟨S16x64x64x1, .f32⟩ : BufTy).Contents (Elt F)),
    StableHlo.unary main_v8 main_v11 (broadcastInDim S16x64x64x1 ![0, 1, 2] bcast_S16x64x64_S16x64x64x1_0_1_2 : (⟨S16x64x64, .f32⟩ : BufTy).Contents (Elt F) → (⟨S16x64x64x1, .f32⟩ : BufTy).Contents (Elt F)),
    StableHlo.unary main_v9 main_v12 (broadcastInDim S16x64x64x1 ![0, 1, 2] bcast_S16x64x64_S16x64x64x1_0_1_2 : (⟨S16x64x64, .f32⟩ : BufTy).Contents (Elt F) → (⟨S16x64x64x1, .f32⟩ : BufTy).Contents (Elt F)),
    StableHlo.nary ![main_v10, main_v11, main_v12] main_v13 (fun u => concatenate S16x64x64x3 3 [⟨S16x64x64x1, u 0⟩, ⟨S16x64x64x1, u 1⟩, ⟨S16x64x64x1, u 2⟩] concatenates_S16x64x64x1_S16x64x64x1_S16x64x64x1_S16x64x64x3_d3),
    StableHlo.binary main_v13 main_arg1 main_v14 ((fun l r => Host.dotGeneral dot_S16x64x64x3_S3x16_S16x64x64x16_3_0_012_1_n_n none l r) : (⟨S16x64x64x3, .f32⟩ : BufTy).Contents (Elt F) → (⟨S3x16, .f32⟩ : BufTy).Contents (Elt F) → (⟨S16x64x64x16, .f32⟩ : BufTy).Contents (Elt F)),
    StableHlo.unary main_arg2 main_v15 (broadcastInDim S1x1x1x16 ![3] bcast_S16_S1x1x1x16_3 : (⟨S16, .f32⟩ : BufTy).Contents (Elt F) → (⟨S1x1x1x16, .f32⟩ : BufTy).Contents (Elt F)),
    StableHlo.unary main_v15 main_v16 (broadcastInDim S16x64x64x16 ![0, 1, 2, 3] bcast_S1x1x1x16_S16x64x64x16_0_1_2_3 : (⟨S1x1x1x16, .f32⟩ : BufTy).Contents (Elt F) → (⟨S16x64x64x16, .f32⟩ : BufTy).Contents (Elt F)),
    StableHlo.binary main_v14 main_v16 main_v17 (addf : (⟨S16x64x64x16, .f32⟩ : BufTy).Contents (Elt F) → (⟨S16x64x64x16, .f32⟩ : BufTy).Contents (Elt F) → (⟨S16x64x64x16, .f32⟩ : BufTy).Contents (Elt F)),
    StableHlo.TRef.nullary main_call4.cst (constant S_ .f32 0x00000000#32),
    StableHlo.TRef.unary main_call4.cst main_call4.v0 (broadcastInDim S16x64x64x16 ![] bcast_S_S16x64x64x16),
    StableHlo.TRef.binary (.of main_v17 : StableHlo.TRef sig ⟨S16x64x64x16, .f32⟩) main_call4.v0 main_call4.v1 maximumf,
    StableHlo.binary main_v18 main_arg3 main_v19 ((fun l r => Host.dotGeneral dot_S16x64x64x16_S16x1_S16x64x64x1_3_0_012_1_n_n none l r) : (⟨S16x64x64x16, .f32⟩ : BufTy).Contents (Elt F) → (⟨S16x1, .f32⟩ : BufTy).Contents (Elt F) → (⟨S16x64x64x1, .f32⟩ : BufTy).Contents (Elt F)),
    StableHlo.unary main_arg4 main_v20 (broadcastInDim S1x1x1x1 ![3] bcast_S1_S1x1x1x1_3 : (⟨S1, .f32⟩ : BufTy).Contents (Elt F) → (⟨S1x1x1x1, .f32⟩ : BufTy).Contents (Elt F)),
    StableHlo.unary main_v20 main_v21 (broadcastInDim S16x64x64x1 ![0, 1, 2, 3] bcast_S1x1x1x1_S16x64x64x1_0_1_2_3 : (⟨S1x1x1x1, .f32⟩ : BufTy).Contents (Elt F) → (⟨S16x64x64x1, .f32⟩ : BufTy).Contents (Elt F)),
    StableHlo.binary main_v19 main_v21 main_v22 (addf : (⟨S16x64x64x1, .f32⟩ : BufTy).Contents (Elt F) → (⟨S16x64x64x1, .f32⟩ : BufTy).Contents (Elt F) → (⟨S16x64x64x1, .f32⟩ : BufTy).Contents (Elt F)),
    StableHlo.unary main_v22 main_v23 (Host.negf : (⟨S16x64x64x1, .f32⟩ : BufTy).Contents (Elt F) → (⟨S16x64x64x1, .f32⟩ : BufTy).Contents (Elt F)),
    StableHlo.unary main_v23 main_v24 (Host.exp : (⟨S16x64x64x1, .f32⟩ : BufTy).Contents (Elt F) → (⟨S16x64x64x1, .f32⟩ : BufTy).Contents (Elt F)),
    StableHlo.nullary main_cst_7 (constant S_ .f32 0x3F800000#32),
    StableHlo.unary main_cst_7 main_v25 (broadcastInDim S16x64x64x1 ![] bcast_S_S16x64x64x1 : (⟨S_, .f32⟩ : BufTy).Contents (Elt F) → (⟨S16x64x64x1, .f32⟩ : BufTy).Contents (Elt F)),
    StableHlo.binary main_v25 main_v24 main_v26 (addf : (⟨S16x64x64x1, .f32⟩ : BufTy).Contents (Elt F) → (⟨S16x64x64x1, .f32⟩ : BufTy).Contents (Elt F) → (⟨S16x64x64x1, .f32⟩ : BufTy).Contents (Elt F)),
    StableHlo.nullary main_cst_8 (constant S_ .f32 0x3F800000#32),
    StableHlo.unary main_cst_8 main_v27 (broadcastInDim S16x64x64x1 ![] bcast_S_S16x64x64x1 : (⟨S_, .f32⟩ : BufTy).Contents (Elt F) → (⟨S16x64x64x1, .f32⟩ : BufTy).Contents (Elt F)),
    StableHlo.binary main_v27 main_v26 main_v28 (Host.divf : (⟨S16x64x64x1, .f32⟩ : BufTy).Contents (Elt F) → (⟨S16x64x64x1, .f32⟩ : BufTy).Contents (Elt F) → (⟨S16x64x64x1, .f32⟩ : BufTy).Contents (Elt F)),
    StableHlo.reshape main_v28 main_v29 rfl shapeCasts_S16x64x64x1_S16x64x64 ]

-- seventy-nine steps compared one under the other: the comparison recurses once per statement
set_option maxRecDepth 8192 in
/-- @main is that straight line, by computation: a call is its function's body applied, and sequencing a body
    with what follows it re-associates to one chain of steps by the definition of sequencing. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨
    binary_bufs_sub .., nullary_bufs_sub .., binary_bufs_sub .., nullary_bufs_sub .., unary_bufs_sub .., binary_bufs_sub ..,
    unary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., unary_bufs_sub .., nary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    reshape_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerm.lean ====
/-
  The reference program's result as ONE term of its five argument arrays, stage by stage, at any float
  instance: per pixel (b, h, w) the three channel statistics over the 256 channels
  (root mean square, unbiased variance, standard deviation, each clipped to [0, 1]) and the 3-16-1
  perceptron on them, ending in 1 / (1 + exp (-z)).
-/
import proofs.«111932_j463856468232_1_alg».proof.Proof.Gen.ReferenceIdeal

noncomputable section

namespace Cert.ReferenceIdeal.RefTerm

open Cert.ReferenceIdeal Cert.ReferenceIdeal.Gen Idealize.ShloMosaic

variable {F : FTy → Type} [FloatOps F]

/-- A scalar word laid over every pixel. -/
def splat (b : BitVec 32) : FVec F S16x64x64 .f32 :=
  broadcastInDim S16x64x64 ![] bcast_S_S16x64x64 (constant S_ .f32 b)

/-- The sum over the channel axis, from the zero word. -/
def chanSum (x : FVec F S16x256x64x64 .f32) : FVec F S16x64x64 .f32 :=
  Host.reduceAdd x (constant S_ .f32 0x00000000#32) reducesTo_S16x256x64x64_S16x64x64_d1 h_S_

/-- The mean over the channels of the squares: the channel sum of x·x divided by the word of 256. -/
def sqMean (x : FVec F S16x256x64x64 .f32) : FVec F S16x64x64 .f32 :=
  Host.divf (chanSum (mulf x x)) (splat 0x43800000#32)

/-- The unbiased divisor: the word of 256 minus the integer 1 converted. -/
def count1 : FVec F S_ .f32 :=
  subf (constant S_ .f32 0x43800000#32) (sitofp .f32 (constantI S_ 32 1#32))

/-- Each entry minus its pixel's channel mean (the mean kept as a unit channel axis and laid back over the channels). -/
def centered (x : FVec F S16x256x64x64 .f32) : FVec F S16x256x64x64 .f32 :=
  subf x (broadcastInDim S16x256x64x64 ![0, 1, 2, 3] bcast_S16x1x64x64_S16x256x64x64_0_1_2_3
    (Host.divf (broadcastInDim S16x1x64x64 ![0, 2, 3] bcast_S16x64x64_S16x1x64x64_0_2_3 (chanSum x))
      (broadcastInDim S16x1x64x64 ![] bcast_S_S16x1x64x64 (constant S_ .f32 0x43800000#32))))

/-- The unbiased variance over the channels: the channel sum of squared deviations over the divisor where the
    divisor is positive, the not-a-number word elsewhere. -/
def variance (x : FVec F S16x256x64x64 .f32) : FVec F S16x64x64 .f32 :=
  select (broadcastInDim S16x64x64 ![] bcast_S_S16x64x64 (cmpf .ogt (count1 (F := F)) (constant S_ .f32 0x00000000#32)))
    (Host.divf (chanSum (mulf (centered x) (centered x))) (broadcastInDim S16x64x64 ![] bcast_S_S16x64x64 count1))
    (broadcastInDim S16x64x64 ![] bcast_S_S16x64x64 (constant S_ .f32 0x7FC00000#32))

/-- Clipping to [0, 1]: the minimum with the word of 1 of the maximum with the word of 0. -/
def clip01 (v : FVec F S16x64x64 .f32) : FVec F S16x64x64 .f32 :=
  minimumf (splat 0x3F800000#32) (maximumf (splat 0x00000000#32) v)

/-- A per-pixel statistic as a last axis of extent one. -/
def asColumn (v : FVec F S16x64x64 .f32) : FVec F S16x64x64x1 .f32 :=
  broadcastInDim S16x64x64x1 ![0, 1, 2] bcast_S16x64x64_S16x64x64x1_0_1_2 v

/-- The three clipped statistics stacked along a last axis of extent three. -/
def feats (x : FVec F S16x256x64x64 .f32) : FVec F S16x64x64x3 .f32 :=
  concatenate S16x64x64x3 3 [⟨S16x64x64x1, asColumn (clip01 (Host.sqrt (sqMean x)))⟩,
    ⟨S16x64x64x1, asColumn (clip01 (variance x))⟩,
    ⟨S16x64x64x1, asColumn (clip01 (Host.sqrt (variance x)))⟩]
    concatenates_S16x64x64x1_S16x64x64x1_S16x64x64x1_S16x64x64x3_d3

/-- The hidden layer: the features times W1 plus b1, floored at zero. -/
def hiddenLayer (x : FVec F S16x256x64x64 .f32) (w1 : FVec F S3x16 .f32) (b1 : FVec F S16 .f32) : FVec F S16x64x64x16 .f32 :=
  maximumf
    (addf (Host.dotGeneral dot_S16x64x64x3_S3x16_S16x64x64x16_3_0_012_1_n_n none (feats x) w1)
      (broadcastInDim S16x64x64x16 ![0, 1, 2, 3] bcast_S1x1x1x16_S16x64x64x16_0_1_2_3
        (broadcastInDim S1x1x1x16 ![3] bcast_S16_S1x1x1x16_3 b1)))
    (broadcastInDim S16x64x64x16 ![] bcast_S_S16x64x64x16 (constant S_ .f32 0x00000000#32))

/-- The output layer before the squashing: the hidden layer times W2 plus b2. -/
def logits (x : FVec F S16x256x64x64 .f32) (w1 : FVec F S3x16 .f32) (b1 : FVec F S16 .f32) (w2 : FVec F S16x1 .f32)
    (b2 : FVec F S1 .f32) : FVec F S16x64x64x1 .f32 :=
  addf (Host.dotGeneral dot_S16x64x64x16_S16x1_S16x64x64x1_3_0_012_1_n_n none (hiddenLayer x w1 b1) w2)
    (broadcastInDim S16x64x64x1 ![0, 1, 2, 3] bcast_S1x1x1x1_S16x64x64x1_0_1_2_3
      (broadcastInDim S1x1x1x1 ![3] bcast_S1_S1x1x1x1_3 b2))

/-- The reference's result: 1 / (1 + exp (-logits)), the unit last axis dropped. -/
def refOut (x : FVec F S16x256x64x64 .f32) (w1 : FVec F S3x16 .f32) (b1 : FVec F S16 .f32) (w2 : FVec F S16x1 .f32)
    (b2 : FVec F S1 .f32) : FVec F S16x64x64 .f32 :=
  shapeCast S16x64x64
    (Host.divf (broadcastInDim S16x64x64x1 ![] bcast_S_S16x64x64x1 (constant S_ .f32 0x3F800000#32))
      (addf (broadcastInDim S16x64x64x1 ![] bcast_S_S16x64x64x1 (constant S_ .f32 0x3F800000#32))
        (Host.exp (Host.negf (logits x w1 b1 w2 b2)))))
    shapeCasts_S16x64x64x1_S16x64x64

end Cert.ReferenceIdeal.RefTerm

end
-- ==== Proof.RefOut.lean ====
/-
  The reference program's run with its result NAMED: the fold of @main's 79 operations, read at the result buffer,
  is the one term `refOut` of the five argument arrays (the three clipped channel statistics per pixel through the
  3-16-1 perceptron and the squashing 1 / (1 + exp (-z))), and read at an argument buffer it is the argument: no
  operation writes an argument. Hence every weakly fair execution of @main terminates with the result buffer at
  `refOut` of the launch contents of the arguments, and the arguments unchanged.
-/
import proofs.«111932_j463856468232_1_alg».proof.Proof.RefRun
import proofs.«111932_j463856468232_1_alg».proof.Proof.RefTerm

noncomputable section

namespace Cert.ReferenceIdeal.RefOut

open Cert.ReferenceIdeal Cert.ReferenceIdeal.Gen Cert.ReferenceIdeal.RefRun Cert.ReferenceIdeal.RefTerm Idealize.ShloMosaic Idealize.ShloMosaic.TcCoe Idealize.SL.Sem Idealize.ShloMosaic.StableHlo

variable {F : FTy → Type} [FloatOps F]

attribute [local irreducible] Host.reduceAdd Host.divf Host.sqrt Host.exp Host.negf concatenate broadcastInDim shapeCast select mulf subf addf maximumf minimumf cmpf sitofp constant constantI in
set_option maxRecDepth 8192 in
set_option maxHeartbeats 1000000 in
/-- The fold at the result buffer is `refOut` of the arguments by computation: the fold unrolled, each operation's
    result decides whether the buffer read is the one it writes, a typed reference's transport is the identity at a
    literal reference, and a conversion between equal types is the identity — all of it definitional. The array
    operations (sums over the channel axis, broadcasts, the stacking, the elementwise arithmetic) are kept folded
    meanwhile: the equation never looks inside them, and the arrays have 16·256·64·64 entries. -/
theorem out_eq (V : Valuation τ sig (Elt F)) :
    after ops V (main_v29 : DevRef τ sig)
      = refOut (V (main_arg0 : DevRef τ sig)) (V (main_arg1 : DevRef τ sig)) (V (main_arg2 : DevRef τ sig)) (V (main_arg3 : DevRef τ sig)) (V (main_arg4 : DevRef τ sig)) := by
  simp only [after_cons, after_nil]
  rfl

/-! No operation writes an argument buffer: the fold read there is what was there. -/

theorem arg0_eq (V : Valuation τ sig (Elt F)) : after ops V (main_arg0 : DevRef τ sig) = V (main_arg0 : DevRef τ sig) := by
  simp only [after_cons, after_nil]
  rfl

theorem arg1_eq (V : Valuation τ sig (Elt F)) : after ops V (main_arg1 : DevRef τ sig) = V (main_arg1 : DevRef τ sig) := by
  simp only [after_cons, after_nil]
  rfl

theorem arg2_eq (V : Valuation τ sig (Elt F)) : after ops V (main_arg2 : DevRef τ sig) = V (main_arg2 : DevRef τ sig) := by
  simp only [after_cons, after_nil]
  rfl

theorem arg3_eq (V : Valuation τ sig (Elt F)) : after ops V (main_arg3 : DevRef τ sig) = V (main_arg3 : DevRef τ sig) := by
  simp only [after_cons, after_nil]
  rfl

theorem arg4_eq (V : Valuation τ sig (Elt F)) : after ops V (main_arg4 : DevRef τ sig) = V (main_arg4 : DevRef τ sig) := by
  simp only [after_cons, after_nil]
  rfl

/-- The run with the result NAMED and the arguments unchanged: on every device, for any float values, from any
    memory with zero counters, every weakly fair execution of @main terminates with the result buffer at `refOut`
    of the arguments' launch contents and each argument buffer as it was. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v29).trans (out_eq _), (h c main_arg0).trans (arg0_eq _),
      (h c main_arg1).trans (arg1_eq _), (h c main_arg2).trans (arg2_eq _), (h c main_arg3).trans (arg3_eq _),
      (h c main_arg4).trans (arg4_eq _)⟩)
    (run_main m ρ)

end Cert.ReferenceIdeal.RefOut

end
-- ==== Proof.RefPixel.lean ====
/-
  The reference's result term read pixel by pixel: each stage of the term, at the exact values and at explicit
  coordinates (b, c, h, w), is the corresponding per-pixel quantity of the column c ↦ x (b, c, h, w).
-/
import proofs.«111932_j463856468232_1_alg».proof.Proof.RefTerm
import proofs.«111932_j463856468232_1_alg».proof.Proof.Pixel
import Idealize.ShloMosaic.Lib.Pipeline.Value
import Idealize.ShloMosaic.Lib.ValueIdx
import Idealize.ShloMosaic.PureOps.Ideal.Laws

noncomputable section

namespace Cert.ReferenceIdeal.RefPixel

open Cert.ReferenceIdeal Cert.ReferenceIdeal.Gen Cert.ReferenceIdeal.RefTerm Idealize.ShloMosaic Idealize.ShloMosaic.ValueIdx

/-! ## A scalar word laid over an array -/

/-- The splat of a word over the pixels reads the word's value everywhere. -/
theorem splat_apply (bits : BitVec 32) (b : Fin 16) (h w : Fin 64) :
    splat (F := Ideal) bits (ix3 b h w) = Ideal.ofBits .f32 bits := by
  unfold splat
  exact broadcastInDim_apply _ _ _ _ ix0 (fun a => a.elim0)

/-- A rank-0 array laid over the pixels reads its one entry. -/
theorem bcast0_S16x64x64 {α : Type} (v : S_.Idx → α) (b : Fin 16) (h w : Fin 64) :
    broadcastInDim S16x64x64 ![] bcast_S_S16x64x64 v (ix3 b h w) = v ix0 :=
  broadcastInDim_apply _ _ _ _ ix0 (fun a => a.elim0)

/-- … over the pixels with a unit channel axis … -/
theorem bcast0_S16x1x64x64 {α : Type} (v : S_.Idx → α) (j : S16x1x64x64.Idx) :
    broadcastInDim S16x1x64x64 ![] bcast_S_S16x1x64x64 v j = v ix0 :=
  broadcastInDim_apply _ _ _ _ ix0 (fun a => a.elim0)

/-- … over the hidden layer … -/
theorem bcast0_S16x64x64x16 {α : Type} (v : S_.Idx → α) (j : S16x64x64x16.Idx) :
    broadcastInDim S16x64x64x16 ![] bcast_S_S16x64x64x16 v j = v ix0 :=
  broadcastInDim_apply _ _ _ _ ix0 (fun a => a.elim0)

/-- … and over the output column. -/
theorem bcast0_S16x64x64x1 {α : Type} (v : S_.Idx → α) (j : S16x64x64x1.Idx) :
    broadcastInDim S16x64x64x1 ![] bcast_S_S16x64x64x1 v j = v ix0 :=
  broadcastInDim_apply _ _ _ _ ix0 (fun a => a.elim0)

/-! ## The channel sum -/

/-- The channel sum at a pixel is the sum of the column. -/
theorem chanSum_apply (v : FVec Ideal S16x256x64x64 .f32) (b : Fin 16) (h w : Fin 64) :
    chanSum v (ix3 b h w) = ∑ c : Fin 256, v (ix4 b c h w) := by
  unfold chanSum
  simp only [Host.reduceAdd, Ideal.hostReduceAdd_def]
  rw [Ideal.hostReduceAdd_single reducesTo_S16x256x64x64_S16x64x64_d1 (by decide)]
  rw [constant_apply, Ideal.ofBits_zero_f32, zero_add]
  refine Finset.sum_congr rfl fun k _ => ?_
  exact congrArg v (funext fun a => Fin.ext (by
    match a with
    | ⟨0, _⟩ => rfl
    | ⟨1, _⟩ => rfl
    | ⟨2, _⟩ => rfl
    | ⟨3, _⟩ => rfl))

/-! ## The mean of squares, the centred entries, the unbiased variance -/

/-- The mean of squares at a pixel is the column's. -/
theorem sqMean_apply (x : FVec Ideal S16x256x64x64 .f32) (b : Fin 16) (h w : Fin 64) :
    RefTerm.sqMean x (ix3 b h w) = Cert.PixelScore.sqMean (fun c => x (ix4 b c h w)) := by
  unfold RefTerm.sqMean Cert.PixelScore.sqMean
  show Ideal.div (chanSum (mulf x x) (ix3 b h w)) (splat (F := Ideal) 0x43800000#32 (ix3 b h w)) = _
  rw [chanSum_apply, splat_apply]
  rfl

/-- The channel mean, kept as a unit channel axis, at a pixel is the column's mean. -/
theorem meanKeep_apply (x : FVec Ideal S16x256x64x64 .f32) (b : Fin 16) (h w : Fin 64) :
    Host.divf (broadcastInDim S16x1x64x64 ![0, 2, 3] bcast_S16x64x64_S16x1x64x64_0_2_3 (chanSum x))
        (broadcastInDim S16x1x64x64 ![] bcast_S_S16x1x64x64 (constant (F := Ideal) S_ .f32 0x43800000#32))
        (ix4 b 0 h w : S16x1x64x64.Idx)
      = Cert.PixelScore.chanMean (fun c => x (ix4 b c h w)) := by
  show Ideal.div (broadcastInDim S16x1x64x64 ![0, 2, 3] bcast_S16x64x64_S16x1x64x64_0_2_3 (chanSum x) (ix4 b 0 h w))
      (broadcastInDim S16x1x64x64 ![] bcast_S_S16x1x64x64 (constant (F := Ideal) S_ .f32 0x43800000#32) (ix4 b 0 h w)) = _
  rw [bcast0_S16x1x64x64, constant_apply]
  rw [broadcastInDim_apply _ _ (chanSum x) (ix4 b 0 h w : S16x1x64x64.Idx) (ix3 b h w) (fun a => by
    match a with
    | ⟨0, _⟩ => rfl
    | ⟨1, _⟩ => rfl
    | ⟨2, _⟩ => rfl)]
  rw [chanSum_apply]
  rfl

/-- A centred entry is the entry minus its column's mean. -/
theorem centered_apply (x : FVec Ideal S16x256x64x64 .f32) (b : Fin 16) (c : Fin 256) (h w : Fin 64) :
    centered x (ix4 b c h w) = x (ix4 b c h w) - Cert.PixelScore.chanMean (fun c' => x (ix4 b c' h w)) := by
  unfold centered
  rw [subf_apply]
  refine congrArg (x (ix4 b c h w) - ·) ?_
  refine (broadcastInDim_apply _ _ _ (ix4 b c h w) (ix4 b 0 h w : S16x1x64x64.Idx) (fun a => by
    match a with
    | ⟨0, _⟩ => rfl
    | ⟨1, _⟩ => rfl
    | ⟨2, _⟩ => rfl
    | ⟨3, _⟩ => rfl)).trans ?_
  exact meanKeep_apply x b h w

/-- The unbiased divisor is the word of 255. -/
theorem count1_apply : count1 (F := Ideal) ix0 = Ideal.ofBits .f32 0x437F0000#32 := by
  unfold count1
  exact Cert.PixelScore.unbiased_count

/-- The unbiased variance at a pixel is the column's. -/
theorem variance_apply (x : FVec Ideal S16x256x64x64 .f32) (b : Fin 16) (h w : Fin 64) :
    RefTerm.variance x (ix3 b h w) = Cert.PixelScore.variance (fun c => x (ix4 b c h w)) := by
  unfold RefTerm.variance
  rw [select_apply, bcast0_S16x64x64, cmpf_apply, count1_apply, constant_apply, Ideal.cmpf_def,
    Cert.PixelScore.count_pos, select_one]
  show Ideal.div (chanSum (mulf (centered x) (centered x)) (ix3 b h w))
      (broadcastInDim S16x64x64 ![] bcast_S_S16x64x64 (count1 (F := Ideal)) (ix3 b h w)) = _
  rw [chanSum_apply, bcast0_S16x64x64, count1_apply]
  unfold Cert.PixelScore.variance
  refine congrArg (Ideal.div · _) (Finset.sum_congr rfl fun c _ => ?_)
  rw [mulf_apply, centered_apply]

/-! ## Clipping, and the three statistics stacked -/

/-- Clipping at a pixel clips the entry. -/
theorem clip01_apply (v : FVec Ideal S16x64x64 .f32) (b : Fin 16) (h w : Fin 64) :
    clip01 v (ix3 b h w) = Cert.PixelScore.clipUnit (v (ix3 b h w)) := by
  unfold clip01
  rw [minimumf_apply, maximumf_apply, splat_apply, splat_apply]
  rfl

/-- A statistic as a unit last axis reads the statistic. -/
theorem asColumn_apply (v : FVec Ideal S16x64x64 .f32) (b : Fin 16) (h w : Fin 64) :
    asColumn v (ix4 b h w 0) = v (ix3 b h w) := by
  unfold asColumn
  exact broadcastInDim_apply _ _ v (ix4 b h w 0 : S16x64x64x1.Idx) (ix3 b h w) (fun a => by
    match a with
    | ⟨0, _⟩ => rfl
    | ⟨1, _⟩ => rfl
    | ⟨2, _⟩ => rfl)

/-- The stack of three unit-axis pieces at last coordinate 0 reads the first piece … -/
theorem stack_zero (p0 p1 p2 : FVec Ideal S16x64x64x1 .f32) (b : Fin 16) (h w : Fin 64) :
    concatenate S16x64x64x3 3 [⟨S16x64x64x1, p0⟩, ⟨S16x64x64x1, p1⟩, ⟨S16x64x64x1, p2⟩]
        concatenates_S16x64x64x1_S16x64x64x1_S16x64x64x1_S16x64x64x3_d3 (ix4 b h w 0)
      = p0 (ix4 b h w 0) :=
  concatenate_apply_piece 3 _ _ (ix4 b h w 0 : S16x64x64x3.Idx) 0 (by show 0 < 3; omega) S16x64x64x1 p0 rfl rfl 0 rfl
    (ix4 b h w 0 : S16x64x64x1.Idx)
    (fun a hne => by
      match a, hne with
      | ⟨0, _⟩, _ => rfl
      | ⟨1, _⟩, _ => rfl
      | ⟨2, _⟩, _ => rfl
      | ⟨3, _⟩, hne => exact absurd rfl hne)
    rfl

/-- … at last coordinate 1 the second … -/
theorem stack_one (p0 p1 p2 : FVec Ideal S16x64x64x1 .f32) (b : Fin 16) (h w : Fin 64) :
    concatenate S16x64x64x3 3 [⟨S16x64x64x1, p0⟩, ⟨S16x64x64x1, p1⟩, ⟨S16x64x64x1, p2⟩]
        concatenates_S16x64x64x1_S16x64x64x1_S16x64x64x1_S16x64x64x3_d3 (ix4 b h w 1)
      = p1 (ix4 b h w 0) :=
  concatenate_apply_piece 3 _ _ (ix4 b h w 1 : S16x64x64x3.Idx) 1 (by show 1 < 3; omega) S16x64x64x1 p1 rfl rfl 1 rfl
    (ix4 b h w 0 : S16x64x64x1.Idx)
    (fun a hne => by
      match a, hne with
      | ⟨0, _⟩, _ => rfl
      | ⟨1, _⟩, _ => rfl
      | ⟨2, _⟩, _ => rfl
      | ⟨3, _⟩, hne => exact absurd rfl hne)
    rfl

/-- … and at last coordinate 2 the third. -/
theorem stack_two (p0 p1 p2 : FVec Ideal S16x64x64x1 .f32) (b : Fin 16) (h w : Fin 64) :
    concatenate S16x64x64x3 3 [⟨S16x64x64x1, p0⟩, ⟨S16x64x64x1, p1⟩, ⟨S16x64x64x1, p2⟩]
        concatenates_S16x64x64x1_S16x64x64x1_S16x64x64x1_S16x64x64x3_d3 (ix4 b h w 2)
      = p2 (ix4 b h w 0) :=
  concatenate_apply_piece 3 _ _ (ix4 b h w 2 : S16x64x64x3.Idx) 2 (by show 2 < 3; omega) S16x64x64x1 p2 rfl rfl 2 rfl
    (ix4 b h w 0 : S16x64x64x1.Idx)
    (fun a hne => by
      match a, hne with
      | ⟨0, _⟩, _ => rfl
      | ⟨1, _⟩, _ => rfl
      | ⟨2, _⟩, _ => rfl
      | ⟨3, _⟩, hne => exact absurd rfl hne)
    rfl

/-- The first feature is the clipped root of the mean of squares. -/
theorem feats_zero (x : FVec Ideal S16x256x64x64 .f32) (b : Fin 16) (h w : Fin 64) :
    feats x (ix4 b h w 0) = Cert.PixelScore.stat (fun c => x (ix4 b c h w)) 0 := by
  unfold feats
  rw [stack_zero, asColumn_apply, clip01_apply, Cert.PixelScore.stat_zero]
  show Cert.PixelScore.clipUnit (Ideal.sqrt (RefTerm.sqMean x (ix3 b h w))) = _
  rw [sqMean_apply]

/-- The second feature is the clipped variance. -/
theorem feats_one (x : FVec Ideal S16x256x64x64 .f32) (b : Fin 16) (h w : Fin 64) :
    feats x (ix4 b h w 1) = Cert.PixelScore.stat (fun c => x (ix4 b c h w)) 1 := by
  unfold feats
  rw [stack_one, asColumn_apply, clip01_apply, Cert.PixelScore.stat_one, variance_apply]

/-- The third feature is the clipped root of the variance. -/
theorem feats_two (x : FVec Ideal S16x256x64x64 .f32) (b : Fin 16) (h w : Fin 64) :
    feats x (ix4 b h w 2) = Cert.PixelScore.stat (fun c => x (ix4 b c h w)) 2 := by
  unfold feats
  rw [stack_two, asColumn_apply, clip01_apply, Cert.PixelScore.stat_two]
  show Cert.PixelScore.clipUnit (Ideal.sqrt (RefTerm.variance x (ix3 b h w))) = _
  rw [variance_apply]

/-- The features at a pixel are the column's three statistics. -/
theorem feats_apply (x : FVec Ideal S16x256x64x64 .f32) (b : Fin 16) (h w : Fin 64) (i : Fin 3) :
    feats x (ix4 b h w i) = Cert.PixelScore.stat (fun c => x (ix4 b c h w)) i := by
  match i with
  | ⟨0, _⟩ => exact feats_zero x b h w
  | ⟨1, _⟩ => exact feats_one x b h w
  | ⟨2, _⟩ => exact feats_two x b h w

/-! ## The two products -/

/-- The first product's dimension numbers: features against W1, contracting the feature axis. -/
abbrev dotA : DotDims S16x64x64x3 S3x16 S16x64x64x16 := dot_S16x64x64x3_S3x16_S16x64x64x16_3_0_012_1_n_n
/-- The second product's dimension numbers: hidden layer against W2, contracting the hidden axis. -/
abbrev dotB : DotDims S16x64x64x16 S16x1 S16x64x64x1 := dot_S16x64x64x16_S16x1_S16x64x64x1_3_0_012_1_n_n

/-! The first product's operand indices, coordinate by coordinate: the left operand reads the pixel and the
    contraction position, the right operand the contraction position and the output unit. -/

theorem dotA_lhs0 (j : S16x64x64x16.Idx) (q : dotA.contr.Idx) : (dotA.lhsIdx j q (0 : Fin 4)).val = (j (0 : Fin 4)).val := by
  unfold DotDims.lhsIdx
  rw [dif_neg (show ¬((0 : Fin S16x64x64x3.rank) ∈ dotA.lhsBatch) by decide),
    dif_pos (show (0 : Fin S16x64x64x3.rank) ∈ dotA.lhsNonContracting by decide)]
  rfl
theorem dotA_lhs1 (j : S16x64x64x16.Idx) (q : dotA.contr.Idx) : (dotA.lhsIdx j q (1 : Fin 4)).val = (j (1 : Fin 4)).val := by
  unfold DotDims.lhsIdx
  rw [dif_neg (show ¬((1 : Fin S16x64x64x3.rank) ∈ dotA.lhsBatch) by decide),
    dif_pos (show (1 : Fin S16x64x64x3.rank) ∈ dotA.lhsNonContracting by decide)]
  rfl
theorem dotA_lhs2 (j : S16x64x64x16.Idx) (q : dotA.contr.Idx) : (dotA.lhsIdx j q (2 : Fin 4)).val = (j (2 : Fin 4)).val := by
  unfold DotDims.lhsIdx
  rw [dif_neg (show ¬((2 : Fin S16x64x64x3.rank) ∈ dotA.lhsBatch) by decide),
    dif_pos (show (2 : Fin S16x64x64x3.rank) ∈ dotA.lhsNonContracting by decide)]
  rfl
theorem dotA_lhs3 (j : S16x64x64x16.Idx) (q : dotA.contr.Idx) :
    (dotA.lhsIdx j q (3 : Fin 4)).val = (q ⟨0, by decide⟩).val :=
  dotA.lhsIdx_val_of_single rfl j q
theorem dotA_rhs0 (j : S16x64x64x16.Idx) (q : dotA.contr.Idx) :
    (dotA.rhsIdx j q (0 : Fin 2)).val = (q ⟨0, by decide⟩).val :=
  dotA.rhsIdx_val_of_single rfl j q
theorem dotA_rhs1 (j : S16x64x64x16.Idx) (q : dotA.contr.Idx) : (dotA.rhsIdx j q (1 : Fin 2)).val = (j (3 : Fin 4)).val := by
  unfold DotDims.rhsIdx
  rw [dif_neg (show ¬((1 : Fin S3x16.rank) ∈ dotA.rhsBatch) by decide),
    dif_pos (show (1 : Fin S3x16.rank) ∈ dotA.rhsNonContracting by decide)]
  rfl

/-- The first product at (b, h, w, o): the sum over the three features of feature times weight. -/
theorem dotA_apply (l : FVec Ideal S16x64x64x3 .f32) (r : FVec Ideal S3x16 .f32) (b : Fin 16) (h w : Fin 64) (o : Fin 16) :
    Host.dotGeneral (F := Ideal) dot_S16x64x64x3_S3x16_S16x64x64x16_3_0_012_1_n_n none l r (ix4 b h w o)
      = ∑ i : Fin 3, l (ix4 b h w i) * r (ix2 i o) := by
  simp only [Host.dotGeneral]
  rw [Ideal.dotGeneral_apply, ← Equiv.sum_comp (contrEquiv1 dotA 3 rfl rfl).symm]
  refine Finset.sum_congr rfl fun k _ => ?_
  have hk := contrEquiv1_symm_val dotA 3 rfl rfl k
  have el : dotA.lhsIdx (ix4 b h w o) ((contrEquiv1 dotA 3 rfl rfl).symm k) = ix4 b h w k :=
    funext fun a => Fin.ext (by
      match a with
      | ⟨0, _⟩ => exact dotA_lhs0 _ _
      | ⟨1, _⟩ => exact dotA_lhs1 _ _
      | ⟨2, _⟩ => exact dotA_lhs2 _ _
      | ⟨3, _⟩ => exact (dotA_lhs3 _ _).trans hk)
  have er : dotA.rhsIdx (ix4 b h w o) ((contrEquiv1 dotA 3 rfl rfl).symm k) = ix2 k o :=
    funext fun a => Fin.ext (by
      match a with
      | ⟨0, _⟩ => exact (dotA_rhs0 _ _).trans hk
      | ⟨1, _⟩ => exact dotA_rhs1 _ _)
  rw [el, er]

/-! The second product's operand indices, coordinate by coordinate. -/

theorem dotB_lhs0 (j : S16x64x64x1.Idx) (q : dotB.contr.Idx) : (dotB.lhsIdx j q (0 : Fin 4)).val = (j (0 : Fin 4)).val := by
  unfold DotDims.lhsIdx
  rw [dif_neg (show ¬((0 : Fin S16x64x64x16.rank) ∈ dotB.lhsBatch) by decide),
    dif_pos (show (0 : Fin S16x64x64x16.rank) ∈ dotB.lhsNonContracting by decide)]
  rfl
theorem dotB_lhs1 (j : S16x64x64x1.Idx) (q : dotB.contr.Idx) : (dotB.lhsIdx j q (1 : Fin 4)).val = (j (1 : Fin 4)).val := by
  unfold DotDims.lhsIdx
  rw [dif_neg (show ¬((1 : Fin S16x64x64x16.rank) ∈ dotB.lhsBatch) by decide),
    dif_pos (show (1 : Fin S16x64x64x16.rank) ∈ dotB.lhsNonContracting by decide)]
  rfl
theorem dotB_lhs2 (j : S16x64x64x1.Idx) (q : dotB.contr.Idx) : (dotB.lhsIdx j q (2 : Fin 4)).val = (j (2 : Fin 4)).val := by
  unfold DotDims.lhsIdx
  rw [dif_neg (show ¬((2 : Fin S16x64x64x16.rank) ∈ dotB.lhsBatch) by decide),
    dif_pos (show (2 : Fin S16x64x64x16.rank) ∈ dotB.lhsNonContracting by decide)]
  rfl
theorem dotB_lhs3 (j : S16x64x64x1.Idx) (q : dotB.contr.Idx) :
    (dotB.lhsIdx j q (3 : Fin 4)).val = (q ⟨0, by decide⟩).val :=
  dotB.lhsIdx_val_of_single rfl j q
theorem dotB_rhs0 (j : S16x64x64x1.Idx) (q : dotB.contr.Idx) :
    (dotB.rhsIdx j q (0 : Fin 2)).val = (q ⟨0, by decide⟩).val :=
  dotB.rhsIdx_val_of_single rfl j q
theorem dotB_rhs1 (j : S16x64x64x1.Idx) (q : dotB.contr.Idx) : (dotB.rhsIdx j q (1 : Fin 2)).val = (j (3 : Fin 4)).val := by
  unfold DotDims.rhsIdx
  rw [dif_neg (show ¬((1 : Fin S16x1.rank) ∈ dotB.rhsBatch) by decide),
    dif_pos (show (1 : Fin S16x1.rank) ∈ dotB.rhsNonContracting by decide)]
  rfl

/-- The second product at (b, h, w, 0): the sum over the sixteen hidden units of unit times weight. -/
theorem dotB_apply (l : FVec Ideal S16x64x64x16 .f32) (r : FVec Ideal S16x1 .f32) (b : Fin 16) (h w : Fin 64) :
    Host.dotGeneral (F := Ideal) dot_S16x64x64x16_S16x1_S16x64x64x1_3_0_012_1_n_n none l r (ix4 b h w 0)
      = ∑ o : Fin 16, l (ix4 b h w o) * r (ix2 o 0) := by
  simp only [Host.dotGeneral]
  rw [Ideal.dotGeneral_apply, ← Equiv.sum_comp (contrEquiv1 dotB 16 rfl rfl).symm]
  refine Finset.sum_congr rfl fun k _ => ?_
  have hk := contrEquiv1_symm_val dotB 16 rfl rfl k
  have el : dotB.lhsIdx (ix4 b h w 0) ((contrEquiv1 dotB 16 rfl rfl).symm k) = ix4 b h w k :=
    funext fun a => Fin.ext (by
      match a with
      | ⟨0, _⟩ => exact dotB_lhs0 _ _
      | ⟨1, _⟩ => exact dotB_lhs1 _ _
      | ⟨2, _⟩ => exact dotB_lhs2 _ _
      | ⟨3, _⟩ => exact (dotB_lhs3 _ _).trans hk)
  have er : dotB.rhsIdx (ix4 b h w 0) ((contrEquiv1 dotB 16 rfl rfl).symm k) = ix2 k 0 :=
    funext fun a => Fin.ext (by
      match a with
      | ⟨0, _⟩ => exact (dotB_rhs0 _ _).trans hk
      | ⟨1, _⟩ => exact dotB_rhs1 _ _)
  rw [el, er]

/-! ## The perceptron -/

/-- The first layer's bias laid over the pixels reads the unit's bias. -/
theorem biasA_apply (b1 : FVec Ideal S16 .f32) (b : Fin 16) (h w : Fin 64) (o : Fin 16) :
    broadcastInDim S16x64x64x16 ![0, 1, 2, 3] bcast_S1x1x1x16_S16x64x64x16_0_1_2_3
        (broadcastInDim S1x1x1x16 ![3] bcast_S16_S1x1x1x16_3 b1) (ix4 b h w o)
      = b1 (ix1 o) := by
  refine (broadcastInDim_apply _ _ _ (ix4 b h w o : S16x64x64x16.Idx) (ix4 0 0 0 o : S1x1x1x16.Idx) (fun a => by
    match a with
    | ⟨0, _⟩ => rfl
    | ⟨1, _⟩ => rfl
    | ⟨2, _⟩ => rfl
    | ⟨3, _⟩ => rfl)).trans ?_
  exact broadcastInDim_apply _ _ b1 (ix4 0 0 0 o : S1x1x1x16.Idx) (ix1 o) (fun a => by
    match a with
    | ⟨0, _⟩ => rfl)

/-- The second layer's bias laid over the pixels reads the bias. -/
theorem biasB_apply (b2 : FVec Ideal S1 .f32) (b : Fin 16) (h w : Fin 64) :
    broadcastInDim S16x64x64x1 ![0, 1, 2, 3] bcast_S1x1x1x1_S16x64x64x1_0_1_2_3
        (broadcastInDim S1x1x1x1 ![3] bcast_S1_S1x1x1x1_3 b2) (ix4 b h w 0)
      = b2 (ix1 0) := by
  refine (broadcastInDim_apply _ _ _ (ix4 b h w 0 : S16x64x64x1.Idx) (ix4 0 0 0 0 : S1x1x1x1.Idx) (fun a => by
    match a with
    | ⟨0, _⟩ => rfl
    | ⟨1, _⟩ => rfl
    | ⟨2, _⟩ => rfl
    | ⟨3, _⟩ => rfl)).trans ?_
  exact broadcastInDim_apply _ _ b2 (ix4 0 0 0 0 : S1x1x1x1.Idx) (ix1 0) (fun a => by
    match a with
    | ⟨0, _⟩ => rfl)

/-- The hidden layer at (b, h, w, o) is hidden unit o on the pixel's statistics. -/
theorem hiddenLayer_apply (x : FVec Ideal S16x256x64x64 .f32) (w1 : FVec Ideal S3x16 .f32) (b1 : FVec Ideal S16 .f32)
    (b : Fin 16) (h w : Fin 64) (o : Fin 16) :
    hiddenLayer x w1 b1 (ix4 b h w o)
      = Cert.PixelScore.hidden (Cert.PixelScore.stat fun c => x (ix4 b c h w)) (fun i o => w1 (ix2 i o))
          (fun o => b1 (ix1 o)) o := by
  unfold hiddenLayer
  rw [maximumf_apply, addf_apply, bcast0_S16x64x64x16, constant_apply, biasA_apply, dotA_apply]
  unfold Cert.PixelScore.hidden
  refine congrArg (max · _) (congrArg (· + _) (Finset.sum_congr rfl fun i _ => ?_))
  rw [feats_apply]

/-- The output layer before the squashing at a pixel. -/
theorem logits_apply (x : FVec Ideal S16x256x64x64 .f32) (w1 : FVec Ideal S3x16 .f32) (b1 : FVec Ideal S16 .f32)
    (w2 : FVec Ideal S16x1 .f32) (b2 : FVec Ideal S1 .f32) (b : Fin 16) (h w : Fin 64) :
    logits x w1 b1 w2 b2 (ix4 b h w 0)
      = (∑ o : Fin 16, Cert.PixelScore.hidden (Cert.PixelScore.stat fun c => x (ix4 b c h w)) (fun i o => w1 (ix2 i o))
            (fun o => b1 (ix1 o)) o * w2 (ix2 o 0)) + b2 (ix1 0) := by
  unfold logits
  rw [addf_apply, biasB_apply, dotB_apply]
  refine congrArg (· + _) (Finset.sum_congr rfl fun o _ => ?_)
  rw [hiddenLayer_apply]

/-- The reference's result at a pixel is the score of the pixel's statistics. -/
theorem refOut_apply (x : FVec Ideal S16x256x64x64 .f32) (w1 : FVec Ideal S3x16 .f32) (b1 : FVec Ideal S16 .f32)
    (w2 : FVec Ideal S16x1 .f32) (b2 : FVec Ideal S1 .f32) (b : Fin 16) (h w : Fin 64) :
    refOut x w1 b1 w2 b2 (ix3 b h w)
      = Cert.PixelScore.score (Cert.PixelScore.stat fun c => x (ix4 b c h w)) (fun i o => w1 (ix2 i o))
          (fun o => b1 (ix1 o)) (fun o => w2 (ix2 o 0)) (b2 (ix1 0)) := by
  unfold refOut
  refine (shapeCast_apply _ _ (ix3 b h w : S16x64x64.Idx) (ix4 b h w 0 : S16x64x64x1.Idx) (by
    rw [Shape.rowMajor_val_four, Shape.rowMajor_val_three]
    show ((b.val * 64 + h.val) * 64 + w.val) * 1 + 0 = (b.val * 64 + h.val) * 64 + w.val
    omega)).trans ?_
  show Ideal.div
      (broadcastInDim S16x64x64x1 ![] bcast_S_S16x64x64x1 (constant (F := Ideal) S_ .f32 0x3F800000#32) (ix4 b h w 0))
      (broadcastInDim S16x64x64x1 ![] bcast_S_S16x64x64x1 (constant (F := Ideal) S_ .f32 0x3F800000#32) (ix4 b h w 0)
        + Ideal.exp (-(logits x w1 b1 w2 b2 (ix4 b h w 0)))) = _
  rw [bcast0_S16x64x64x1, constant_apply, logits_apply, Cert.PixelScore.logistic_spelt]
  rfl

/-- At the exact values the reference's result term is the per-pixel function G of its arguments. -/
theorem refOut_eq (x : FVec Ideal S16x256x64x64 .f32) (w1 : FVec Ideal S3x16 .f32) (b1 : FVec Ideal S16 .f32)
    (w2 : FVec Ideal S16x1 .f32) (b2 : FVec Ideal S1 .f32) :
    refOut (F := Ideal) x w1 b1 w2 b2 = Cert.PixelScore.G x w1 b1 w2 b2 := by
  funext j
  obtain ⟨b, h, w, rfl⟩ : ∃ (b : Fin 16) (h w : Fin 64), j = ix3 b h w := ⟨j 0, j 1, j 2, eq_ix3 j⟩
  rw [refOut_apply, Cert.PixelScore.G_apply]

end Cert.ReferenceIdeal.RefPixel

end
-- ==== Proof.lean ====
/-
  The certificate's five claims.
  Both idealized programs compute, at every pixel (b, h, w) of the 16 images, the same function of the five argument
  arrays: the logistic score of a 3-16-1 perceptron applied to the pixel's three clipped channel statistics (root mean
  square, unbiased variance, standard deviation over the 256 channels). The kernel does it one image per grid point,
  with the pixels of an image as 4096 rows and the perceptron as two matrix products; the reference does it on the
  whole batch with two contractions over a trailing axis. On the extended reals a sum does not depend on its
  arrangement, the matrix-unit product into a zero accumulator is the plain sum of products, the unbiased divisor
  256 - 1 is 255, and the logistic function is 1 / (1 + exp (-z)) in both spellings, so the two result arrays are one
  function of the arguments, index by index; no finiteness of the inputs is used. The three frames are the
  generated frame proofs (the reference's is its run with the result dropped), and the kernel's idealization
  rewrote nothing.
-/
import proofs.«111932_j463856468232_1_alg».proof.Defs
import proofs.«111932_j463856468232_1_alg».proof.Proof.Gen.Kernel
import proofs.«111932_j463856468232_1_alg».proof.Proof.Gen.Kernel.Frame
import proofs.«111932_j463856468232_1_alg».proof.Proof.Gen.KernelIdeal
import proofs.«111932_j463856468232_1_alg».proof.Proof.Gen.KernelIdeal.Frame
import proofs.«111932_j463856468232_1_alg».proof.Proof.Gen.ReferenceIdeal
import proofs.«111932_j463856468232_1_alg».proof.Proof.Gen.Pre_finite_inputs
import proofs.«111932_j463856468232_1_alg».proof.Proof.KernelValue
import proofs.«111932_j463856468232_1_alg».proof.Proof.RefOut
import proofs.«111932_j463856468232_1_alg».proof.Proof.RefPixel
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RefOut.run (F := Ideal) m ρ)

/-- The idealization rewrote no operation. -/
theorem preserves : Cert.preserves_Kernel_KernelIdeal := trivial

/-- From memories that agree on the arguments both runs end with the result array at the per-pixel function of the
    arguments: the kernel's by its grid of image planes, the reference's by its operations read at an index. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.RefOut.run (F := Ideal) m' ρ')
  rw [Cert.ReferenceIdeal.RefPixel.refOut_eq, (hagree c).1, (hagree c).2.1, (hagree c).2.2.1, (hagree c).2.2.2.1,
    (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
